-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16384x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16384x512 : Shape := ⟨2, ![16384, 512]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩
abbrev S2x2048x512 : Shape := ⟨3, ![2, 2048, 512]⟩
abbrev S1x2048x512 : Shape := ⟨3, ![1, 2048, 512]⟩

abbrev nBuf : Space → Nat
  | .hbm => 11
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x512, .bf16⟩
  | .local _ .vmem, ⟨14, _⟩ => ⟨S1x512, .bf16⟩
  | .local _ .vmem, ⟨15, _⟩ => ⟨S2x2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v9 : BitVec 32 := Scalar.addi arg0 c1_i32
  let c2_i32 : BitVec 32 := 2#32
  let v10 : BitVec 32 := Scalar.remsi v9 c2_i32
  let v11 : Index := Scalar.indexCast v10
  let c0 : Index := 0#32
  let c0_4 : Index := 0#32
  ![v11.toNat, 0, 0]
def k0_cond3 (i : grid0.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg0 : BitVec 32 := BitVec.ofNat 32 (i 0).val
  let c2_i32 : BitVec 32 := 2#32
  let v28 : BitVec 32 := Scalar.remsi arg0 c2_i32
  let v29 : Index := Scalar.indexCast v28
  let c0_19 : Index := 0#32
  let c0_20 : Index := 0#32
  ![v29.toNat, 0, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  packedbf16_S1x512_S1x512_0_0 : (Rect.unit (s := S1x512) ![0, 0] S1x512.size inb_S1x512_S1x512_0_0).PackedRows (EltTy.packing .bf16)
  h_S1x2048x512 : 0 < S1x2048x512.numel
  shapeCasts_S1x2048x512_S2048x512 : S1x2048x512.ShapeCasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  k0_off1_inb : ∀ i : grid0.Coords, ∀ (k0_h2 : k0_cond2 i = 1#1), ∀ a, (k0_off1 i) a + S1x2048x512.size a ≤ S2x2048x512.size a
  k0_off2_inb : ∀ i : grid0.Coords, ∀ (k0_h3 : k0_cond3 i = 1#1), ∀ a, (k0_off2 i) a + S1x2048x512.size a ≤ S2x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S16384x512.size a
  hwx0_7 : ∀ i : grid0.Coords, EltTy.bits .f32 = 32 ∨ (Rect.block (s := S16384x512) S2048x512.size (cc0_transform_7 i) (hinb0_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S0 : Shape := ⟨1, ![0]⟩
abbrev S_ : Shape := ⟨0, ![]⟩
abbrev S1x512 : Shape := ⟨2, ![1, 512]⟩
abbrev S1 : Shape := ⟨1, ![1]⟩
abbrev S128x512 : Shape := ⟨2, ![128, 512]⟩

abbrev nBuf : Space → Nat
  | .hbm => 39
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S0, .i32⟩
  | .hbm, ⟨8, _⟩ => ⟨S0, .i32⟩
  | .hbm, ⟨9, _⟩ => ⟨S0, .i32⟩
  | .hbm, ⟨10, _⟩ => ⟨S0, .i32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S1x512, .f32⟩
  | .hbm, ⟨19, _⟩ => ⟨S_, .i32⟩
  | .hbm, ⟨20, _⟩ => ⟨S1, .i32⟩
  | .hbm, ⟨21, _⟩ => ⟨S1x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S1x512, .f32⟩
  | .hbm, ⟨27, _⟩ => ⟨S_, .i32⟩
  | .hbm, ⟨28, _⟩ => ⟨S1, .i32⟩
  | .hbm, ⟨29, _⟩ => ⟨S1x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S1x512, .f32⟩
  | .hbm, ⟨35, _⟩ => ⟨S_, .i32⟩
  | .hbm, ⟨36, _⟩ => ⟨S1, .i32⟩
  | .hbm, ⟨37, _⟩ => ⟨S1x512, .f32⟩
  | .hbm, ⟨38, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_3 : Ref sig .tc := ⟨.hbm, 14, rfl⟩
abbrev main_v2 : Ref sig .tc := ⟨.hbm, 15, rfl⟩
abbrev main_v3 : Ref sig .tc := ⟨.hbm, 16, rfl⟩
abbrev main_cst_4 : Ref sig .tc := ⟨.hbm, 17, rfl⟩
abbrev main_v4 : Ref sig .tc := ⟨.hbm, 18, rfl⟩
abbrev main_c_5 : Ref sig .tc := ⟨.hbm, 19, rfl⟩
abbrev main_v5 : Ref sig .tc := ⟨.hbm, 20, rfl⟩
abbrev main_v6 : Ref sig .tc := ⟨.hbm, 21, rfl⟩
abbrev main_cst_6 : Ref sig .tc := ⟨.hbm, 22, rfl⟩
abbrev main_v7 : Ref sig .tc := ⟨.hbm, 23, rfl⟩
abbrev main_v8 : Ref sig .tc := ⟨.hbm, 24, rfl⟩
abbrev main_cst_7 : Ref sig .tc := ⟨.hbm, 25, rfl⟩
abbrev main_v9 : Ref sig .tc := ⟨.hbm, 26, rfl⟩
abbrev main_c_8 : Ref sig .tc := ⟨.hbm, 27, rfl⟩
abbrev main_v10 : Ref sig .tc := ⟨.hbm, 28, rfl⟩
abbrev main_v11 : Ref sig .tc := ⟨.hbm, 29, rfl⟩
abbrev main_cst_9 : Ref sig .tc := ⟨.hbm, 30, rfl⟩
abbrev main_v12 : Ref sig .tc := ⟨.hbm, 31, rfl⟩
abbrev main_v13 : Ref sig .tc := ⟨.hbm, 32, rfl⟩
abbrev main_cst_10 : Ref sig .tc := ⟨.hbm, 33, rfl⟩
abbrev main_v14 : Ref sig .tc := ⟨.hbm, 34, rfl⟩
abbrev main_c_11 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  hz_S0 : S0.numel = 0
  bcast_S_S16384x512 : S_.BroadcastsInDim S16384x512 (![] : Fin 0 → Fin S16384x512.rank)
  bcast_S_S512x512 : S_.BroadcastsInDim S512x512 (![] : Fin 0 → Fin S512x512.rank)
  bcast_S_S1x512 : S_.BroadcastsInDim S1x512 (![] : Fin 0 → Fin S1x512.rank)
  bcast_S_S1 : S_.BroadcastsInDim S1 (![] : Fin 0 → Fin S1.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  scatter_S16384x512_S0_S16384x512_01_n_n_0_wf : ScatterDims.WF S16384x512 S0 S16384x512 [0, 1] [] [] 0
  scatter_S512x512_S0_S512x512_01_n_n_0_wf : ScatterDims.WF S512x512 S0 S512x512 [0, 1] [] [] 0
  scatter_S1x512_S1_S512_0_0_0_0_wf : ScatterDims.WF S1x512 S1 S512 [0] [0] [0] 0
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S16384x512.size a
  hwx0_0 : ∀ i : grid0.Coords, EltTy.bits .f32 = 32 ∨ (Rect.block (s := S16384x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S16384x512.size a
  hwx0_7 : ∀ i : grid0.Coords, EltTy.bits .f32 = 32 ∨ (Rect.block (s := S16384x512) S128x512.size (cc0_transform_7 i) (hinb0_7 i)).WholeWords (EltTy.packing .f32)

variable [Facts₀]

def scatter_S16384x512_S0_S16384x512_01_n_n_0 : ScatterDims S16384x512 S0 S16384x512 where
  updateWindowDims := [0, 1]
  insertedWindowDims := []
  scatterDimsToOperandDims := []
  indexVectorDim := 0
  wf := scatter_S16384x512_S0_S16384x512_01_n_n_0_wf
def scatter_S512x512_S0_S512x512_01_n_n_0 : ScatterDims S512x512 S0 S512x512 where
  updateWindowDims := [0, 1]
  insertedWindowDims := []
  scatterDimsToOperandDims := []
  indexVectorDim := 0
  wf := scatter_S512x512_S0_S512x512_01_n_n_0_wf
def scatter_S1x512_S1_S512_0_0_0_0 : ScatterDims S1x512 S1 S512 where
  updateWindowDims := [0]
  insertedWindowDims := [0]
  scatterDimsToOperandDims := [0]
  indexVectorDim := 0
  wf := scatter_S1x512_S1_S512_0_0_0_0_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_v1) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Bits.Shared.lean ====
import proofs.«142892_g2000705975908629_pallasbulk_322_25_alg».proof.Proof.Gen.Kernel.Frame
import proofs.«142892_g2000705975908629_pallasbulk_322_25_alg».proof.Proof.Gen.Kernel.Skeleton
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The body's three conditions, and where on the nine-point grid each holds

The grid has nine points for eight row tiles of the batch: point t computes tile t (when t < 8) into half
t mod 2 of the two-tile scratch and, when t ≥ 1, adds the last bias to tile t - 1, read from the other half,
and stores it to the output block. Point 0 also narrows the three weight matrices and the two hidden biases into
scratch. -/

/-- The body is at the grid's first point. -/
abbrev atStart (i : grid0.Coords) : Prop :=
  (Scalar.cmpi .ne (Scalar.extui (Scalar.cmpi .eq (BitVec.ofNat 32 (i 0).val) 0#32)) 0#32) = 1#1
/-- The body writes an output tile: every point but the first. -/
abbrev drains (i : grid0.Coords) : Prop := k0_cond2 i = 1#1
/-- The body computes a tile: every point but the last. -/
abbrev computes (i : grid0.Coords) : Prop := k0_cond3 i = 1#1

theorem atStart_iff : ∀ t : Fin cfg0.N, atStart (grid0.coords t) ↔ t.val = 0 :=
  (by decide +kernel : ∀ t : Fin grid0.N, atStart (grid0.coords t) ↔ t.val = 0)
theorem drains_iff : ∀ t : Fin cfg0.N, drains (grid0.coords t) ↔ 1 ≤ t.val :=
  (by decide +kernel : ∀ t : Fin grid0.N, drains (grid0.coords t) ↔ 1 ≤ t.val)
theorem computes_iff : ∀ t : Fin cfg0.N, computes (grid0.coords t) ↔ t.val < 8 :=
  (by decide +kernel : ∀ t : Fin grid0.N, computes (grid0.coords t) ↔ t.val < 8)

/-- The half of the scratch a point reads its finished tile from is the half the point before computed into:
    (t + 1) mod 2 = (t - 1) mod 2. -/
theorem drain_slot : ∀ t t' : Fin cfg0.N, t'.val + 1 = t.val → k0_off1 (grid0.coords t) = k0_off2 (grid0.coords t') :=
  (by decide +kernel : ∀ t t' : Fin grid0.N, t'.val + 1 = t.val → k0_off1 (grid0.coords t) = k0_off2 (grid0.coords t'))

/-- The output window is idle at the first point only (nothing is stored into it there), -/
theorem out_idle_first : ∀ t : Fin cfg0.N, t.val = 0 → cfg0.idle 7 (grid0.coords t) = true :=
  (by decide +kernel : ∀ t : Fin grid0.N, t.val = 0 → cfg0.idle 7 (grid0.coords t) = true)
theorem out_live_later : ∀ t : Fin cfg0.N, t.val ≠ 0 → cfg0.idle 7 (grid0.coords t) = false :=
  (by decide +kernel : ∀ t : Fin grid0.N, t.val ≠ 0 → cfg0.idle 7 (grid0.coords t) = false)
/-- and is written back at every later point. -/
theorem out_flush_iff : ∀ t : Fin cfg0.N, (cfg0.win 7).flush t = true ↔ 1 ≤ t.val :=
  (by decide +kernel : ∀ t : Fin grid0.N, win0_7.flush t = true ↔ 1 ≤ t.val)
theorem out_noflush_first : ∀ t : Fin cfg0.N, t.val = 0 → (cfg0.win 7).flush t = false :=
  (by decide +kernel : ∀ t : Fin grid0.N, t.val = 0 → win0_7.flush t = false)

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-! ## The memrefs the body is called with -/

abbrev stg0 (t : Fin cfg0.N) : Memref sig .tc .vmem S2048x512 .f32 := win0_0.stage (cfg0.slots t 0)
abbrev stg1 (t : Fin cfg0.N) : Memref sig .tc .vmem S512x512 .f32 := win0_1.stage (cfg0.slots t 1)
abbrev stg2 (t : Fin cfg0.N) : Memref sig .tc .vmem S1x512 .f32 := win0_2.stage (cfg0.slots t 2)
abbrev stg3 (t : Fin cfg0.N) : Memref sig .tc .vmem S512x512 .f32 := win0_3.stage (cfg0.slots t 3)
abbrev stg4 (t : Fin cfg0.N) : Memref sig .tc .vmem S1x512 .f32 := win0_4.stage (cfg0.slots t 4)
abbrev stg5 (t : Fin cfg0.N) : Memref sig .tc .vmem S512x512 .f32 := win0_5.stage (cfg0.slots t 5)
abbrev stg6 (t : Fin cfg0.N) : Memref sig .tc .vmem S1x512 .f32 := win0_6.stage (cfg0.slots t 6)
abbrev stg7 (t : Fin cfg0.N) : Memref sig .tc .vmem S2048x512 .f32 := win0_7.stage (cfg0.slots t 7)

/-- The six scratch operands: the three narrowed weights, the two narrowed hidden biases, the two-tile buffer. -/
abbrev scr0 : Memref sig .tc .vmem S512x512 .bf16 := Memref.whole cc0_scratch0
abbrev scr1 : Memref sig .tc .vmem S512x512 .bf16 := Memref.whole cc0_scratch1
abbrev scr2 : Memref sig .tc .vmem S512x512 .bf16 := Memref.whole cc0_scratch2
abbrev scr3 : Memref sig .tc .vmem S1x512 .bf16 := Memref.whole cc0_scratch3
abbrev scr4 : Memref sig .tc .vmem S1x512 .bf16 := Memref.whole cc0_scratch4
abbrev scr5 : Memref sig .tc .vmem S2x2048x512 .f32 := Memref.whole cc0_scratch5

/-- What the region hands the body beside the windows: each scratch operand owned at some contents, and the
    generator register at some state. -/
theorem scratch_any (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-! ## Reading back what one store left -/

theorem zeros2 : (![0, 0] : Fin 2 → ℕ) = fun _ => 0 := by funext a; fin_cases a <;> rfl

/-- A buffer stored into once, through the rectangle that is all of it, reads as the stored value. -/
theorem read_one_whole_store {sg : RefSig} {κ : Kind} {sp : Space} {S : Shape} {e : EltTy} {Val : EltTy → Type} [∀ e, Nonempty (Val e)]
    (v : View sg κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hz inb y⟩),
    View.canon_unit_zero hz]

/-- A buffer stored into once, through any rectangle, loaded through that same rectangle gives the stored value. -/
theorem ld_one_store {sg : RefSig} {κ : Kind} {sp : Space} {S : Shape} {e : EltTy} {Val : EltTy → Type}
    (v : View sg κ sp S e) (f : v.ty.Contents Val) (r : Rect S) (w : r.shape.Idx → Val e) :
    View.ld (v.read Val (v.writes Val f [(⟨r, w⟩ : View.Piece Val S e)])) r = w :=
  funext fun x => View.read_writes_cons_emb v f r w [] x

/-- The rectangle of a load or store depends on its offsets only. -/
theorem ld_congr_off {S : Shape} {e : EltTy} {Val : EltTy → Type} (X : S.Idx → Val e) {off off' : Fin S.rank → ℕ}
    (size : Fin S.rank → ℕ) (h : off = off') (inb : ∀ a, off a + size a ≤ S.size a) (inb' : ∀ a, off' a + size a ≤ S.size a) :
    View.ld X (Rect.unit off size inb) = View.ld X (Rect.unit off' size inb') := by
  subst h; rfl

end Cert.Kernel.Hand

end
-- ==== Proof.Bits.RunFirst.lean ====
import proofs.«142892_g2000705975908629_pallasbulk_322_25_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The first point (point 0) narrows the weights and hidden biases into scratch and computes tile 0: scratch ends at
    the narrowed arrays, the half of the two-tile buffer the offsets k0_off2 name at the three-layer product of the
    input tile over those narrowed arrays; the output buffer is not touched. -/
theorem runFirst (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S2048x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .bf16) (harg12 : arg12.IsWhole) (arg13 : Memref sig .tc .vmem S1x512 .bf16) (harg13 : arg13.IsWhole) (arg14 : Memref sig .tc .vmem S2x2048x512 .f32) (harg14 : arg14.IsWhole) (h0 : atStart i) (h1 : ¬drains i) (h2 : computes i)
    (x0 : Vec F S2048x512 .f32) (x1 : Vec F S512x512 .f32) (x2 : Vec F S1x512 .f32) (x3 : Vec F S512x512 .f32) (x4 : Vec F S1x512 .f32) (x5 : Vec F S512x512 .f32) (x6 : Vec F S1x512 .f32) (xo : Vec F S2048x512 .f32) (w0 w1 w2 : Vec F S512x512 .bf16) (b0 b1 : Vec F S1x512 .bf16) (hb : Vec F S2x2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare (k0_pay1 x1) ∗ owns (c : Thread nD τ) arg10 fullShare (k0_pay2 x3) ∗ owns (c : Thread nD τ) arg11 fullShare (k0_pay3 x5) ∗ owns (c : Thread nD τ) arg12 fullShare (k0_pay4 x2) ∗ owns (c : Thread nD τ) arg13 fullShare (k0_pay5 x4) ∗ (∃ d : Vec F S2x2048x512 .f32, ⌜∀ inb, View.ld d (Rect.unit (k0_off2 i) S1x2048x512.size inb) = k0_pay7 x0 (k0_pay1 x1) (k0_pay4 x2) (k0_pay2 x3) (k0_pay5 x4) (k0_pay3 x5)⌝ ∗ owns (c : Thread nD τ) arg14 fullShare d)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
  sl_exec (disch := first | exact h0 | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; swap; · iexact HS0
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS1]
  · iexists _; isplitr; swap; · iexact HS1
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS2]
  · iexists _; isplitr; swap; · iexact HS2
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS3]
  · iexists _; isplitr; swap; · iexact HS3
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS4]
  · iexists _; isplitr; swap; · iexact HS4
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  iexists _; isplitr; swap
  · iexists _; isplitr; swap; · iexact HS5
    ipureintro; rfl
  ipureintro
  intro inb
  sl_unfold_run_names
  refine (ld_one_store _ _ _ _).trans ?_
  rw [View.readCov_unit_zero (S := S512x512) arg9.view zeros2, View.readCov_unit_zero (S := S1x512) arg12.view zeros2, View.readCov_unit_zero (S := S512x512) arg10.view zeros2, View.readCov_unit_zero (S := S1x512) arg13.view zeros2, View.readCov_unit_zero (S := S512x512) arg11.view zeros2]
  simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]

end Cert.Kernel.Hand

end
-- ==== Proof.Bits.RunMiddle.lean ====
import proofs.«142892_g2000705975908629_pallasbulk_322_25_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- A point that both drains and computes (points 1 to 7). From the inputs at their blocks, the narrowed weights and
    biases in scratch and the two-tile buffer at any contents, the body leaves: in the output buffer the tile read from
    the buffer's half the offsets k0_off1 name, plus the last bias on every row; in the half the offsets k0_off2 name,
    the three-layer product of this point's input tile; everything else as it was. -/
theorem runMiddle (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S2048x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .bf16) (harg12 : arg12.IsWhole) (arg13 : Memref sig .tc .vmem S1x512 .bf16) (harg13 : arg13.IsWhole) (arg14 : Memref sig .tc .vmem S2x2048x512 .f32) (harg14 : arg14.IsWhole) (h0 : ¬atStart i) (h1 : drains i) (h2 : computes i)
    (inb1 : ∀ a, k0_off1 i a + S1x2048x512.size a ≤ S2x2048x512.size a)
    (x0 : Vec F S2048x512 .f32) (x1 : Vec F S512x512 .f32) (x2 : Vec F S1x512 .f32) (x3 : Vec F S512x512 .f32) (x4 : Vec F S1x512 .f32) (x5 : Vec F S512x512 .f32) (x6 : Vec F S1x512 .f32) (xo : Vec F S2048x512 .f32) (w0 w1 w2 : Vec F S512x512 .bf16) (b0 b1 : Vec F S1x512 .bf16) (hb : Vec F S2x2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 (View.ld hb (Rect.unit (k0_off1 i) S1x2048x512.size inb1)) x6) ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ (∃ d : Vec F S2x2048x512 .f32, ⌜∀ inb, View.ld d (Rect.unit (k0_off2 i) S1x2048x512.size inb) = k0_pay7 x0 w0 b0 w1 b1 w2⌝ ∗ owns (c : Thread nD τ) arg14 fullShare d)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
  sl_exec (disch := first | exact h0 | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _; isplitr; · ipureintro; exact harg12.read_unread _
    iexact HS3
  isplitl [HS4]
  · iexists _; isplitr; · ipureintro; exact harg13.read_unread _
    iexact HS4
  iexists _; isplitr; swap
  · iexists _; isplitr; swap; · iexact HS5
    ipureintro; rfl
  ipureintro
  intro inb
  refine (ld_one_store _ _ _ _).trans ?_
  simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]

end Cert.Kernel.Hand

end
-- ==== Proof.Bits.RunLast.lean ====
import proofs.«142892_g2000705975908629_pallasbulk_322_25_alg».proof.Proof.Bits.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The last point (point 8) only drains: the output buffer gets the tile read from the two-tile buffer's half the
    offsets k0_off1 name, plus the last bias on every row; everything else is as it was. -/
theorem runLast (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S2048x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .bf16) (harg12 : arg12.IsWhole) (arg13 : Memref sig .tc .vmem S1x512 .bf16) (harg13 : arg13.IsWhole) (arg14 : Memref sig .tc .vmem S2x2048x512 .f32) (harg14 : arg14.IsWhole) (h0 : ¬atStart i) (h1 : drains i) (h2 : ¬computes i)
    (inb1 : ∀ a, k0_off1 i a + S1x2048x512.size a ≤ S2x2048x512.size a)
    (x0 : Vec F S2048x512 .f32) (x1 : Vec F S512x512 .f32) (x2 : Vec F S1x512 .f32) (x3 : Vec F S512x512 .f32) (x4 : Vec F S1x512 .f32) (x5 : Vec F S512x512 .f32) (x6 : Vec F S1x512 .f32) (xo : Vec F S2048x512 .f32) (w0 w1 w2 : Vec F S512x512 .bf16) (b0 b1 : Vec F S1x512 .bf16) (hb : Vec F S2x2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 (View.ld hb (Rect.unit (k0_off1 i) S1x2048x512.size inb1)) x6) ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
  sl_exec (disch := first | exact h0 | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _; isplitr; · ipureintro; exact harg12.read_unread _
    iexact HS3
  isplitl [HS4]
  · iexists _; isplitr; · ipureintro; exact harg13.read_unread _
    iexact HS4
  iexists _; isplitr; · ipureintro; exact harg14.read_unread _
  iexact HS5

end Cert.Kernel.Hand

end
-- ==== Proof.Bits.Track.lean ====
import proofs.«142892_g2000705975908629_pallasbulk_322_25_alg».proof.Proof.Bits.RunFirst
import proofs.«142892_g2000705975908629_pallasbulk_322_25_alg».proof.Proof.Bits.RunMiddle
import proofs.«142892_g2000705975908629_pallasbulk_322_25_alg».proof.Proof.Bits.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the output buffer hold, point by point -/

theorem nine : cfg0.N = 9 := N_0

/-- The grid's first point. -/
def pt0 : Fin cfg0.N := ⟨0, by rw [nine]; decide⟩

/-- The narrowed first, second and third weight matrices and first and second biases: what the first point stores
    into scratch, from the blocks it finds in the weight and bias windows. -/
def nw0 (c : Dev nD) : Vec F S512x512 .bf16 := k0_pay1 (iblk m c 1 pt0)
def nw1 (c : Dev nD) : Vec F S512x512 .bf16 := k0_pay2 (iblk m c 3 pt0)
def nw2 (c : Dev nD) : Vec F S512x512 .bf16 := k0_pay3 (iblk m c 5 pt0)
def nb0 (c : Dev nD) : Vec F S1x512 .bf16 := k0_pay4 (iblk m c 2 pt0)
def nb1 (c : Dev nD) : Vec F S1x512 .bf16 := k0_pay5 (iblk m c 4 pt0)

/-- The three-layer product, before the last bias, of the input tile point t finds in the first window. -/
def tile (c : Dev nD) (t : Fin cfg0.N) : FVec F S1x2048x512 .f32 :=
  k0_pay7 (iblk m c 0 t) (nw0 m c) (nb0 m c) (nw1 m c) (nb1 m c) (nw2 m c)

/-- The point before t (the first point's own, at the first point). -/
def prevPt (t : Fin cfg0.N) : Fin cfg0.N := ⟨t.val - 1, Nat.lt_of_le_of_lt (Nat.sub_le _ _) t.isLt⟩

/-- What a draining point t leaves in the output buffer: the tile the point before computed, plus the last bias. -/
def outTile (c : Dev nD) (t : Fin cfg0.N) : Vec F S2048x512 .f32 := k0_pay6 (tile m c (prevPt t)) (iblk m c 6 t)

/-- After point n (when n computes) the half of the two-tile buffer that n stored into holds n's tile. -/
def SlotHolds (c : Dev nD) (n : ℕ) (hn : n < cfg0.N) (d : Vec F S2x2048x512 .f32) : Prop :=
  n < 8 → ∀ inb, View.ld d (Rect.unit (k0_off2 (grid0.coords ⟨n, hn⟩)) S1x2048x512.size inb) = tile m c ⟨n, hn⟩

/-- The invariant between points: before the first, the scratch at anything; after point n, the five narrowed arrays in
    their scratch buffers and the two-tile buffer holding n's tile in n's half. -/
def Carried (c : Dev nD) : (n : ℕ) → n ≤ cfg0.N → sProp 𝕄
  | 0, _ => Pipeline.ΦA spec0 c
  | n + 1, hn => iprop(iprop(owns (c : Thread nD τ) scr0 fullShare (nw0 m c) ∗ owns (c : Thread nD τ) scr1 fullShare (nw1 m c) ∗ owns (c : Thread nD τ) scr2 fullShare (nw2 m c) ∗ owns (c : Thread nD τ) scr3 fullShare (nb0 m c) ∗ owns (c : Thread nD τ) scr4 fullShare (nb1 m c) ∗ (∃ d, ⌜SlotHolds m c n hn d⌝ ∗ owns (c : Thread nD τ) scr5 fullShare d)) ∗ (∃ r, prngReg c r))

theorem Carried_zero (c : Dev nD) (n : ℕ) (h : n ≤ cfg0.N) (hz : n = 0) : Carried m c n h = Pipeline.ΦA spec0 c := by
  subst hz; rfl

theorem Carried_succ (c : Dev nD) (n : ℕ) (hn : n < cfg0.N) :
    Carried m c (n + 1) hn = iprop(iprop(owns (c : Thread nD τ) scr0 fullShare (nw0 m c) ∗ owns (c : Thread nD τ) scr1 fullShare (nw1 m c) ∗ owns (c : Thread nD τ) scr2 fullShare (nw2 m c) ∗ owns (c : Thread nD τ) scr3 fullShare (nb0 m c) ∗ owns (c : Thread nD τ) scr4 fullShare (nb1 m c) ∗ (∃ d, ⌜SlotHolds m c n hn d⌝ ∗ owns (c : Thread nD τ) scr5 fullShare d)) ∗ (∃ r, prngReg c r)) := rfl

theorem Carried_pos (c : Dev nD) (n : ℕ) (h : n ≤ cfg0.N) (hz : n ≠ 0) :
    Carried m c n h = iprop(iprop(owns (c : Thread nD τ) scr0 fullShare (nw0 m c) ∗ owns (c : Thread nD τ) scr1 fullShare (nw1 m c) ∗ owns (c : Thread nD τ) scr2 fullShare (nw2 m c) ∗ owns (c : Thread nD τ) scr3 fullShare (nb0 m c) ∗ owns (c : Thread nD τ) scr4 fullShare (nb1 m c) ∗ (∃ d, ⌜SlotHolds m c (n - 1) (by omega) d⌝ ∗ owns (c : Thread nD τ) scr5 fullShare d)) ∗ (∃ r, prngReg c r)) := by
  cases n with
  | zero => exact absurd rfl hz
  | succ n => rfl

/-! ## The proof data -/

/-- The arrays as the region finds them; after the body at point t each input buffer at its block, the output buffer at
    the drained tile; the invariant Carried; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile m c t
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Carried_castSucc (c : Dev nD) (t : Fin cfg0.N) :
    (dats m 0 c).Φ t.castSucc = Carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outTile m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the first point narrows the weights and computes tile 0 (the output buffer, idle there, is
    handed back as found); a middle point drains the tile the point before left in the other half and computes its
    own; the last point only drains. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Carried m c (t.val + 1) t.isLt from rfl, Carried_succ]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  rw [show (dats m 0 c).leavesExact 6 t = owns (c : Thread nD τ) (stg6 t) fullShare ((dats m 0 c).after 6 t) from by
    unfold Dat.leavesExact; rw [live6 t], after6]
  have hN : t.val < 9 := lt_of_lt_of_eq t.isLt nine
  by_cases hz : t.val = 0
  · -- the first point
    obtain rfl : t = pt0 := Fin.ext hz
    rw [Dat.leavesExact_idle _ 7 pt0 (out_idle_first pt0 hz) (out_noflush_first pt0 hz)]
    rw [Carried_castSucc m c pt0, Carried_zero m c _ _ hz, scratch_any]
    iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runFirst c (grid0.coords pt0) _ _ _ _ _ _ _ _ _ _ _ _ _ _ _ _ _ _ _ _ _ _ _ _ _ _ _ _ ((atStart_iff pt0).mpr hz) (fun h => by have := (drains_iff pt0).mp h; omega) ((computes_iff pt0).mpr (by omega)) (iblk m c 0 pt0) (iblk m c 1 pt0) (iblk m c 2 pt0) (iblk m c 3 pt0) (iblk m c 4 pt0) (iblk m c 5 pt0) (iblk m c 6 pt0) _ e0 e1 e2 e3 e4 e5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, ⟨%d, %hd, HS5⟩⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexists d; isplitr
        · ipureintro; exact fun _ inb => hd inb
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hlive : (dats m 0 c).leavesExact 7 t = owns (c : Thread nD τ) (stg7 t) fullShare (outTile m c t) := by
      unfold Dat.leavesExact; rw [out_live_later t hz, after7]
    rw [hlive, Carried_castSucc m c t, Carried_pos m c _ _ hz]
    have h0 : ¬atStart (grid0.coords t) := fun h => hz ((atStart_iff t).mp h)
    have h1 : drains (grid0.coords t) := (drains_iff t).mpr (by omega)
    have hprev : (prevPt t).val + 1 = t.val := by unfold prevPt; dsimp only; omega
    have hslot (d : Vec F S2x2048x512 .f32) (hd : SlotHolds m c (t.val - 1) (by omega) d) :
        k0_pay6 (View.ld d (Rect.unit (k0_off1 (grid0.coords t)) S1x2048x512.size (Facts₀.k0_off1_inb (grid0.coords t) h1))) (iblk m c 6 t) = outTile m c t := by
      unfold outTile
      rw [ld_congr_off d S1x2048x512.size (drain_slot t (prevPt t) hprev) _ (by rw [← drain_slot t (prevPt t) hprev]; exact Facts₀.k0_off1_inb (grid0.coords t) h1)]
      exact congrArg (fun v => k0_pay6 v (iblk m c 6 t)) (hd (by omega) _)
    by_cases h8 : t.val < 8
    · -- a middle point
      have h2 : computes (grid0.coords t) := (computes_iff t).mpr h8
      iintro ⟨⟨⟨HS0, HS1, HS2, HS3, HS4, ⟨%d5, %hd5, HS5⟩⟩, Hg⟩, Ho, ⟨%d0, H0⟩, ⟨%d1, H1⟩, ⟨%d2, H2⟩, ⟨%d3, H3⟩, ⟨%d4, H4⟩, ⟨%d5', H5⟩, ⟨%d6, H6⟩, ⟨%d7, H7⟩⟩
      rw [← hslot d5 hd5]
      iapply (runMiddle c (grid0.coords t) _ _ _ _ _ _ _ _ _ _ _ _ _ _ _ _ _ _ _ _ _ _ _ _ _ _ _ _ h0 h1 h2 (Facts₀.k0_off1_inb (grid0.coords t) h1) (iblk m c 0 t) (iblk m c 1 t) (iblk m c 2 t) (iblk m c 3 t) (iblk m c 4 t) (iblk m c 5 t) (iblk m c 6 t) _ (nw0 m c) (nw1 m c) (nw2 m c) (nb0 m c) (nb1 m c) d5 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, HS0, HS1, HS2, HS3, HS4, ⟨%d, %hd, HS5⟩⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexists d; isplitr
          · ipureintro; exact fun _ inb => hd inb
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- the last point
      have h2 : ¬computes (grid0.coords t) := fun h => h8 ((computes_iff t).mp h)
      iintro ⟨⟨⟨HS0, HS1, HS2, HS3, HS4, ⟨%d5, %hd5, HS5⟩⟩, Hg⟩, Ho, ⟨%d0, H0⟩, ⟨%d1, H1⟩, ⟨%d2, H2⟩, ⟨%d3, H3⟩, ⟨%d4, H4⟩, ⟨%d5', H5⟩, ⟨%d6, H6⟩, ⟨%d7, H7⟩⟩
      rw [← hslot d5 hd5]
      iapply (runLast c (grid0.coords t) _ _ _ _ _ _ _ _ _ _ _ _ _ _ _ _ _ _ _ _ _ _ _ _ _ _ _ _ h0 h1 h2 (Facts₀.k0_off1_inb (grid0.coords t) h1) (iblk m c 0 t) (iblk m c 1 t) (iblk m c 2 t) (iblk m c 3 t) (iblk m c 4 t) (iblk m c 5 t) (iblk m c 6 t) _ (nw0 m c) (nw1 m c) (nw2 m c) (nb0 m c) (nb1 m c) d5 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexists d5; isplitr
          · ipureintro; exact fun h => absurd h h8
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the region's own. -/
theorem carried_in (c : Dev nD) : Pipeline.ΦA spec0 c ⊢ (dats m 0 c).Φ 0 := by
  rw [show (dats m 0 c).Φ 0 = Carried m c 0 (Nat.zero_le _) from rfl, Carried_zero m c 0 _ rfl]
  try exact Idealize.SL.BI.Entails.refl _

/-- After the last point it gives the region's own back: what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val (Nat.le_of_lt_succ (Fin.last cfg0.N).isLt) from rfl,
    Carried_pos m c _ _ (by rw [Fin.val_last]; have := nine; omega), scratch_any]
  iintro ⟨⟨HS0, HS1, HS2, HS3, HS4, ⟨%d, -, HS5⟩⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run -/

set_option backward.isDefEq.respectTransparency.types false in
/-- Every weakly fair execution of the program terminates, every array of the pipeline ending at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.Ideal.Shared.lean ====
import proofs.«142892_g2000705975908629_pallasbulk_322_25_alg».proof.Proof.Gen.KernelIdeal.Frame
import proofs.«142892_g2000705975908629_pallasbulk_322_25_alg».proof.Proof.Gen.KernelIdeal.Skeleton
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The body's three conditions, and where on the nine-point grid each holds

The grid has nine points for eight row tiles of the batch: point t computes tile t (when t < 8) into half
t mod 2 of the two-tile scratch and, when t ≥ 1, adds the last bias to tile t - 1, read from the other half,
and stores it to the output block. Point 0 also narrows the three weight matrices and the two hidden biases into
scratch. -/

/-- The body is at the grid's first point. -/
abbrev atStart (i : grid0.Coords) : Prop :=
  (Scalar.cmpi .ne (Scalar.extui (Scalar.cmpi .eq (BitVec.ofNat 32 (i 0).val) 0#32)) 0#32) = 1#1
/-- The body writes an output tile: every point but the first. -/
abbrev drains (i : grid0.Coords) : Prop := k0_cond2 i = 1#1
/-- The body computes a tile: every point but the last. -/
abbrev computes (i : grid0.Coords) : Prop := k0_cond3 i = 1#1

theorem atStart_iff : ∀ t : Fin cfg0.N, atStart (grid0.coords t) ↔ t.val = 0 :=
  (by decide +kernel : ∀ t : Fin grid0.N, atStart (grid0.coords t) ↔ t.val = 0)
theorem drains_iff : ∀ t : Fin cfg0.N, drains (grid0.coords t) ↔ 1 ≤ t.val :=
  (by decide +kernel : ∀ t : Fin grid0.N, drains (grid0.coords t) ↔ 1 ≤ t.val)
theorem computes_iff : ∀ t : Fin cfg0.N, computes (grid0.coords t) ↔ t.val < 8 :=
  (by decide +kernel : ∀ t : Fin grid0.N, computes (grid0.coords t) ↔ t.val < 8)

/-- The half of the scratch a point reads its finished tile from is the half the point before computed into:
    (t + 1) mod 2 = (t - 1) mod 2. -/
theorem drain_slot : ∀ t t' : Fin cfg0.N, t'.val + 1 = t.val → k0_off1 (grid0.coords t) = k0_off2 (grid0.coords t') :=
  (by decide +kernel : ∀ t t' : Fin grid0.N, t'.val + 1 = t.val → k0_off1 (grid0.coords t) = k0_off2 (grid0.coords t'))

/-- The output window is idle at the first point only (nothing is stored into it there), -/
theorem out_idle_first : ∀ t : Fin cfg0.N, t.val = 0 → cfg0.idle 7 (grid0.coords t) = true :=
  (by decide +kernel : ∀ t : Fin grid0.N, t.val = 0 → cfg0.idle 7 (grid0.coords t) = true)
theorem out_live_later : ∀ t : Fin cfg0.N, t.val ≠ 0 → cfg0.idle 7 (grid0.coords t) = false :=
  (by decide +kernel : ∀ t : Fin grid0.N, t.val ≠ 0 → cfg0.idle 7 (grid0.coords t) = false)
/-- and is written back at every later point. -/
theorem out_flush_iff : ∀ t : Fin cfg0.N, (cfg0.win 7).flush t = true ↔ 1 ≤ t.val :=
  (by decide +kernel : ∀ t : Fin grid0.N, win0_7.flush t = true ↔ 1 ≤ t.val)
theorem out_noflush_first : ∀ t : Fin cfg0.N, t.val = 0 → (cfg0.win 7).flush t = false :=
  (by decide +kernel : ∀ t : Fin grid0.N, t.val = 0 → win0_7.flush t = false)

/-- No input window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-! ## The memrefs the body is called with -/

abbrev stg0 (t : Fin cfg0.N) : Memref sig .tc .vmem S2048x512 .f32 := win0_0.stage (cfg0.slots t 0)
abbrev stg1 (t : Fin cfg0.N) : Memref sig .tc .vmem S512x512 .f32 := win0_1.stage (cfg0.slots t 1)
abbrev stg2 (t : Fin cfg0.N) : Memref sig .tc .vmem S1x512 .f32 := win0_2.stage (cfg0.slots t 2)
abbrev stg3 (t : Fin cfg0.N) : Memref sig .tc .vmem S512x512 .f32 := win0_3.stage (cfg0.slots t 3)
abbrev stg4 (t : Fin cfg0.N) : Memref sig .tc .vmem S1x512 .f32 := win0_4.stage (cfg0.slots t 4)
abbrev stg5 (t : Fin cfg0.N) : Memref sig .tc .vmem S512x512 .f32 := win0_5.stage (cfg0.slots t 5)
abbrev stg6 (t : Fin cfg0.N) : Memref sig .tc .vmem S1x512 .f32 := win0_6.stage (cfg0.slots t 6)
abbrev stg7 (t : Fin cfg0.N) : Memref sig .tc .vmem S2048x512 .f32 := win0_7.stage (cfg0.slots t 7)

/-- The six scratch operands: the three narrowed weights, the two narrowed hidden biases, the two-tile buffer. -/
abbrev scr0 : Memref sig .tc .vmem S512x512 .bf16 := Memref.whole cc0_scratch0
abbrev scr1 : Memref sig .tc .vmem S512x512 .bf16 := Memref.whole cc0_scratch1
abbrev scr2 : Memref sig .tc .vmem S512x512 .bf16 := Memref.whole cc0_scratch2
abbrev scr3 : Memref sig .tc .vmem S1x512 .bf16 := Memref.whole cc0_scratch3
abbrev scr4 : Memref sig .tc .vmem S1x512 .bf16 := Memref.whole cc0_scratch4
abbrev scr5 : Memref sig .tc .vmem S2x2048x512 .f32 := Memref.whole cc0_scratch5

/-- What the region hands the body beside the windows: each scratch operand owned at some contents, and the
    generator register at some state. -/
theorem scratch_any (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-! ## Reading back what one store left -/

theorem zeros2 : (![0, 0] : Fin 2 → ℕ) = fun _ => 0 := by funext a; fin_cases a <;> rfl

/-- A buffer stored into once, through the rectangle that is all of it, reads as the stored value. -/
theorem read_one_whole_store {sg : RefSig} {κ : Kind} {sp : Space} {S : Shape} {e : EltTy} {Val : EltTy → Type} [∀ e, Nonempty (Val e)]
    (v : View sg κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hz inb y⟩),
    View.canon_unit_zero hz]

/-- A buffer stored into once, through any rectangle, loaded through that same rectangle gives the stored value. -/
theorem ld_one_store {sg : RefSig} {κ : Kind} {sp : Space} {S : Shape} {e : EltTy} {Val : EltTy → Type}
    (v : View sg κ sp S e) (f : v.ty.Contents Val) (r : Rect S) (w : r.shape.Idx → Val e) :
    View.ld (v.read Val (v.writes Val f [(⟨r, w⟩ : View.Piece Val S e)])) r = w :=
  funext fun x => View.read_writes_cons_emb v f r w [] x

/-- The rectangle of a load or store depends on its offsets only. -/
theorem ld_congr_off {S : Shape} {e : EltTy} {Val : EltTy → Type} (X : S.Idx → Val e) {off off' : Fin S.rank → ℕ}
    (size : Fin S.rank → ℕ) (h : off = off') (inb : ∀ a, off a + size a ≤ S.size a) (inb' : ∀ a, off' a + size a ≤ S.size a) :
    View.ld X (Rect.unit off size inb) = View.ld X (Rect.unit off' size inb') := by
  subst h; rfl

end Cert.KernelIdeal.Hand

end
-- ==== Proof.Ideal.RunFirst.lean ====
import proofs.«142892_g2000705975908629_pallasbulk_322_25_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The first point (point 0) narrows the weights and hidden biases into scratch and computes tile 0: scratch ends at
    the narrowed arrays, the half of the two-tile buffer the offsets k0_off2 name at the three-layer product of the
    input tile over those narrowed arrays; the output buffer is not touched. -/
theorem runFirst (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S2048x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .bf16) (harg12 : arg12.IsWhole) (arg13 : Memref sig .tc .vmem S1x512 .bf16) (harg13 : arg13.IsWhole) (arg14 : Memref sig .tc .vmem S2x2048x512 .f32) (harg14 : arg14.IsWhole) (h0 : atStart i) (h1 : ¬drains i) (h2 : computes i)
    (x0 : Vec F S2048x512 .f32) (x1 : Vec F S512x512 .f32) (x2 : Vec F S1x512 .f32) (x3 : Vec F S512x512 .f32) (x4 : Vec F S1x512 .f32) (x5 : Vec F S512x512 .f32) (x6 : Vec F S1x512 .f32) (xo : Vec F S2048x512 .f32) (w0 w1 w2 : Vec F S512x512 .bf16) (b0 b1 : Vec F S1x512 .bf16) (hb : Vec F S2x2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare (k0_pay1 x1) ∗ owns (c : Thread nD τ) arg10 fullShare (k0_pay2 x3) ∗ owns (c : Thread nD τ) arg11 fullShare (k0_pay3 x5) ∗ owns (c : Thread nD τ) arg12 fullShare (k0_pay4 x2) ∗ owns (c : Thread nD τ) arg13 fullShare (k0_pay5 x4) ∗ (∃ d : Vec F S2x2048x512 .f32, ⌜∀ inb, View.ld d (Rect.unit (k0_off2 i) S1x2048x512.size inb) = k0_pay7 x0 (k0_pay1 x1) (k0_pay4 x2) (k0_pay2 x3) (k0_pay5 x4) (k0_pay3 x5)⌝ ∗ owns (c : Thread nD τ) arg14 fullShare d)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
  sl_exec (disch := first | exact h0 | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [HS0]
  · iexists _; isplitr; swap; · iexact HS0
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS1]
  · iexists _; isplitr; swap; · iexact HS1
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS2]
  · iexists _; isplitr; swap; · iexact HS2
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS3]
  · iexists _; isplitr; swap; · iexact HS3
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS4]
  · iexists _; isplitr; swap; · iexact HS4
    ipureintro
    sl_unfold_run_names
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  iexists _; isplitr; swap
  · iexists _; isplitr; swap; · iexact HS5
    ipureintro; rfl
  ipureintro
  intro inb
  sl_unfold_run_names
  refine (ld_one_store _ _ _ _).trans ?_
  rw [View.readCov_unit_zero (S := S512x512) arg9.view zeros2, View.readCov_unit_zero (S := S1x512) arg12.view zeros2, View.readCov_unit_zero (S := S512x512) arg10.view zeros2, View.readCov_unit_zero (S := S1x512) arg13.view zeros2, View.readCov_unit_zero (S := S512x512) arg11.view zeros2]
  simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]

end Cert.KernelIdeal.Hand

end
-- ==== Proof.Ideal.RunMiddle.lean ====
import proofs.«142892_g2000705975908629_pallasbulk_322_25_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- A point that both drains and computes (points 1 to 7). From the inputs at their blocks, the narrowed weights and
    biases in scratch and the two-tile buffer at any contents, the body leaves: in the output buffer the tile read from
    the buffer's half the offsets k0_off1 name, plus the last bias on every row; in the half the offsets k0_off2 name,
    the three-layer product of this point's input tile; everything else as it was. -/
theorem runMiddle (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S2048x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .bf16) (harg12 : arg12.IsWhole) (arg13 : Memref sig .tc .vmem S1x512 .bf16) (harg13 : arg13.IsWhole) (arg14 : Memref sig .tc .vmem S2x2048x512 .f32) (harg14 : arg14.IsWhole) (h0 : ¬atStart i) (h1 : drains i) (h2 : computes i)
    (inb1 : ∀ a, k0_off1 i a + S1x2048x512.size a ≤ S2x2048x512.size a)
    (x0 : Vec F S2048x512 .f32) (x1 : Vec F S512x512 .f32) (x2 : Vec F S1x512 .f32) (x3 : Vec F S512x512 .f32) (x4 : Vec F S1x512 .f32) (x5 : Vec F S512x512 .f32) (x6 : Vec F S1x512 .f32) (xo : Vec F S2048x512 .f32) (w0 w1 w2 : Vec F S512x512 .bf16) (b0 b1 : Vec F S1x512 .bf16) (hb : Vec F S2x2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 (View.ld hb (Rect.unit (k0_off1 i) S1x2048x512.size inb1)) x6) ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ (∃ d : Vec F S2x2048x512 .f32, ⌜∀ inb, View.ld d (Rect.unit (k0_off2 i) S1x2048x512.size inb) = k0_pay7 x0 w0 b0 w1 b1 w2⌝ ∗ owns (c : Thread nD τ) arg14 fullShare d)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
  sl_exec (disch := first | exact h0 | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _; isplitr; · ipureintro; exact harg12.read_unread _
    iexact HS3
  isplitl [HS4]
  · iexists _; isplitr; · ipureintro; exact harg13.read_unread _
    iexact HS4
  iexists _; isplitr; swap
  · iexists _; isplitr; swap; · iexact HS5
    ipureintro; rfl
  ipureintro
  intro inb
  refine (ld_one_store _ _ _ _).trans ?_
  simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]

end Cert.KernelIdeal.Hand

end
-- ==== Proof.Ideal.RunLast.lean ====
import proofs.«142892_g2000705975908629_pallasbulk_322_25_alg».proof.Proof.Ideal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The last point (point 8) only drains: the output buffer gets the tile read from the two-tile buffer's half the
    offsets k0_off1 name, plus the last bias on every row; everything else is as it was. -/
theorem runLast (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S2048x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .bf16) (harg12 : arg12.IsWhole) (arg13 : Memref sig .tc .vmem S1x512 .bf16) (harg13 : arg13.IsWhole) (arg14 : Memref sig .tc .vmem S2x2048x512 .f32) (harg14 : arg14.IsWhole) (h0 : ¬atStart i) (h1 : drains i) (h2 : ¬computes i)
    (inb1 : ∀ a, k0_off1 i a + S1x2048x512.size a ≤ S2x2048x512.size a)
    (x0 : Vec F S2048x512 .f32) (x1 : Vec F S512x512 .f32) (x2 : Vec F S1x512 .f32) (x3 : Vec F S512x512 .f32) (x4 : Vec F S1x512 .f32) (x5 : Vec F S512x512 .f32) (x6 : Vec F S1x512 .f32) (xo : Vec F S2048x512 .f32) (w0 w1 w2 : Vec F S512x512 .bf16) (b0 b1 : Vec F S1x512 .bf16) (hb : Vec F S2x2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 (View.ld hb (Rect.unit (k0_off1 i) S1x2048x512.size inb1)) x6) ∗ owns (c : Thread nD τ) arg9 fullShare w0 ∗ owns (c : Thread nD τ) arg10 fullShare w1 ∗ owns (c : Thread nD τ) arg11 fullShare w2 ∗ owns (c : Thread nD τ) arg12 fullShare b0 ∗ owns (c : Thread nD τ) arg13 fullShare b1 ∗ owns (c : Thread nD τ) arg14 fullShare hb) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2; obtain rfl := harg12.eq_unread hfs3; obtain rfl := harg13.eq_unread hfs4; obtain rfl := harg14.eq_unread hfs5
  sl_exec (disch := first | exact h0 | exact h1 | exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (read_one_whole_store _ _ zeros2 _ _).trans ?_
    simp only [View.readAt_eq_ld, harg1.read_unread, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x512) zeros2, View.ld_unit_zero (S := S512x512) zeros2, View.ld_unit_zero (S := S1x512) zeros2]
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HS3]
  · iexists _; isplitr; · ipureintro; exact harg12.read_unread _
    iexact HS3
  isplitl [HS4]
  · iexists _; isplitr; · ipureintro; exact harg13.read_unread _
    iexact HS4
  iexists _; isplitr; · ipureintro; exact harg14.read_unread _
  iexact HS5

end Cert.KernelIdeal.Hand

end
-- ==== Proof.Ideal.Track.lean ====
import proofs.«142892_g2000705975908629_pallasbulk_322_25_alg».proof.Proof.Ideal.RunFirst
import proofs.«142892_g2000705975908629_pallasbulk_322_25_alg».proof.Proof.Ideal.RunMiddle
import proofs.«142892_g2000705975908629_pallasbulk_322_25_alg».proof.Proof.Ideal.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the output buffer hold, point by point -/

theorem nine : cfg0.N = 9 := N_0

/-- The grid's first point. -/
def pt0 : Fin cfg0.N := ⟨0, by rw [nine]; decide⟩

/-- The narrowed first, second and third weight matrices and first and second biases: what the first point stores
    into scratch, from the blocks it finds in the weight and bias windows. -/
def nw0 (c : Dev nD) : Vec F S512x512 .bf16 := k0_pay1 (iblk m c 1 pt0)
def nw1 (c : Dev nD) : Vec F S512x512 .bf16 := k0_pay2 (iblk m c 3 pt0)
def nw2 (c : Dev nD) : Vec F S512x512 .bf16 := k0_pay3 (iblk m c 5 pt0)
def nb0 (c : Dev nD) : Vec F S1x512 .bf16 := k0_pay4 (iblk m c 2 pt0)
def nb1 (c : Dev nD) : Vec F S1x512 .bf16 := k0_pay5 (iblk m c 4 pt0)

/-- The three-layer product, before the last bias, of the input tile point t finds in the first window. -/
def tile (c : Dev nD) (t : Fin cfg0.N) : FVec F S1x2048x512 .f32 :=
  k0_pay7 (iblk m c 0 t) (nw0 m c) (nb0 m c) (nw1 m c) (nb1 m c) (nw2 m c)

/-- The point before t (the first point's own, at the first point). -/
def prevPt (t : Fin cfg0.N) : Fin cfg0.N := ⟨t.val - 1, Nat.lt_of_le_of_lt (Nat.sub_le _ _) t.isLt⟩

/-- What a draining point t leaves in the output buffer: the tile the point before computed, plus the last bias. -/
def outTile (c : Dev nD) (t : Fin cfg0.N) : Vec F S2048x512 .f32 := k0_pay6 (tile m c (prevPt t)) (iblk m c 6 t)

/-- After point n (when n computes) the half of the two-tile buffer that n stored into holds n's tile. -/
def SlotHolds (c : Dev nD) (n : ℕ) (hn : n < cfg0.N) (d : Vec F S2x2048x512 .f32) : Prop :=
  n < 8 → ∀ inb, View.ld d (Rect.unit (k0_off2 (grid0.coords ⟨n, hn⟩)) S1x2048x512.size inb) = tile m c ⟨n, hn⟩

/-- The invariant between points: before the first, the scratch at anything; after point n, the five narrowed arrays in
    their scratch buffers and the two-tile buffer holding n's tile in n's half. -/
def Carried (c : Dev nD) : (n : ℕ) → n ≤ cfg0.N → sProp 𝕄
  | 0, _ => Pipeline.ΦA spec0 c
  | n + 1, hn => iprop(iprop(owns (c : Thread nD τ) scr0 fullShare (nw0 m c) ∗ owns (c : Thread nD τ) scr1 fullShare (nw1 m c) ∗ owns (c : Thread nD τ) scr2 fullShare (nw2 m c) ∗ owns (c : Thread nD τ) scr3 fullShare (nb0 m c) ∗ owns (c : Thread nD τ) scr4 fullShare (nb1 m c) ∗ (∃ d, ⌜SlotHolds m c n hn d⌝ ∗ owns (c : Thread nD τ) scr5 fullShare d)) ∗ (∃ r, prngReg c r))

theorem Carried_zero (c : Dev nD) (n : ℕ) (h : n ≤ cfg0.N) (hz : n = 0) : Carried m c n h = Pipeline.ΦA spec0 c := by
  subst hz; rfl

theorem Carried_succ (c : Dev nD) (n : ℕ) (hn : n < cfg0.N) :
    Carried m c (n + 1) hn = iprop(iprop(owns (c : Thread nD τ) scr0 fullShare (nw0 m c) ∗ owns (c : Thread nD τ) scr1 fullShare (nw1 m c) ∗ owns (c : Thread nD τ) scr2 fullShare (nw2 m c) ∗ owns (c : Thread nD τ) scr3 fullShare (nb0 m c) ∗ owns (c : Thread nD τ) scr4 fullShare (nb1 m c) ∗ (∃ d, ⌜SlotHolds m c n hn d⌝ ∗ owns (c : Thread nD τ) scr5 fullShare d)) ∗ (∃ r, prngReg c r)) := rfl

theorem Carried_pos (c : Dev nD) (n : ℕ) (h : n ≤ cfg0.N) (hz : n ≠ 0) :
    Carried m c n h = iprop(iprop(owns (c : Thread nD τ) scr0 fullShare (nw0 m c) ∗ owns (c : Thread nD τ) scr1 fullShare (nw1 m c) ∗ owns (c : Thread nD τ) scr2 fullShare (nw2 m c) ∗ owns (c : Thread nD τ) scr3 fullShare (nb0 m c) ∗ owns (c : Thread nD τ) scr4 fullShare (nb1 m c) ∗ (∃ d, ⌜SlotHolds m c (n - 1) (by omega) d⌝ ∗ owns (c : Thread nD τ) scr5 fullShare d)) ∗ (∃ r, prngReg c r)) := by
  cases n with
  | zero => exact absurd rfl hz
  | succ n => rfl

/-! ## The proof data -/

/-- The arrays as the region finds them; after the body at point t each input buffer at its block, the output buffer at
    the drained tile; the invariant Carried; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTile m c t
  Φ t := Carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Carried_castSucc (c : Dev nD) (t : Fin cfg0.N) :
    (dats m 0 c).Φ t.castSucc = Carried m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outTile m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point: the first point narrows the weights and computes tile 0 (the output buffer, idle there, is
    handed back as found); a middle point drains the tile the point before left in the other half and computes its
    own; the last point only drains. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Carried m c (t.val + 1) t.isLt from rfl, Carried_succ]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [show (dats m 0 c).leavesExact 5 t = owns (c : Thread nD τ) (stg5 t) fullShare ((dats m 0 c).after 5 t) from by
    unfold Dat.leavesExact; rw [live5 t], after5]
  rw [show (dats m 0 c).leavesExact 6 t = owns (c : Thread nD τ) (stg6 t) fullShare ((dats m 0 c).after 6 t) from by
    unfold Dat.leavesExact; rw [live6 t], after6]
  have hN : t.val < 9 := lt_of_lt_of_eq t.isLt nine
  by_cases hz : t.val = 0
  · -- the first point
    obtain rfl : t = pt0 := Fin.ext hz
    rw [Dat.leavesExact_idle _ 7 pt0 (out_idle_first pt0 hz) (out_noflush_first pt0 hz)]
    rw [Carried_castSucc m c pt0, Carried_zero m c _ _ hz, scratch_any]
    iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runFirst c (grid0.coords pt0) _ _ _ _ _ _ _ _ _ _ _ _ _ _ _ _ _ _ _ _ _ _ _ _ _ _ _ _ ((atStart_iff pt0).mpr hz) (fun h => by have := (drains_iff pt0).mp h; omega) ((computes_iff pt0).mpr (by omega)) (iblk m c 0 pt0) (iblk m c 1 pt0) (iblk m c 2 pt0) (iblk m c 3 pt0) (iblk m c 4 pt0) (iblk m c 5 pt0) (iblk m c 6 pt0) _ e0 e1 e2 e3 e4 e5 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, HS0, HS1, HS2, HS3, HS4, ⟨%d, %hd, HS5⟩⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexists d; isplitr
        · ipureintro; exact fun _ inb => hd inb
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hlive : (dats m 0 c).leavesExact 7 t = owns (c : Thread nD τ) (stg7 t) fullShare (outTile m c t) := by
      unfold Dat.leavesExact; rw [out_live_later t hz, after7]
    rw [hlive, Carried_castSucc m c t, Carried_pos m c _ _ hz]
    have h0 : ¬atStart (grid0.coords t) := fun h => hz ((atStart_iff t).mp h)
    have h1 : drains (grid0.coords t) := (drains_iff t).mpr (by omega)
    have hprev : (prevPt t).val + 1 = t.val := by unfold prevPt; dsimp only; omega
    have hslot (d : Vec F S2x2048x512 .f32) (hd : SlotHolds m c (t.val - 1) (by omega) d) :
        k0_pay6 (View.ld d (Rect.unit (k0_off1 (grid0.coords t)) S1x2048x512.size (Facts₀.k0_off1_inb (grid0.coords t) h1))) (iblk m c 6 t) = outTile m c t := by
      unfold outTile
      rw [ld_congr_off d S1x2048x512.size (drain_slot t (prevPt t) hprev) _ (by rw [← drain_slot t (prevPt t) hprev]; exact Facts₀.k0_off1_inb (grid0.coords t) h1)]
      exact congrArg (fun v => k0_pay6 v (iblk m c 6 t)) (hd (by omega) _)
    by_cases h8 : t.val < 8
    · -- a middle point
      have h2 : computes (grid0.coords t) := (computes_iff t).mpr h8
      iintro ⟨⟨⟨HS0, HS1, HS2, HS3, HS4, ⟨%d5, %hd5, HS5⟩⟩, Hg⟩, Ho, ⟨%d0, H0⟩, ⟨%d1, H1⟩, ⟨%d2, H2⟩, ⟨%d3, H3⟩, ⟨%d4, H4⟩, ⟨%d5', H5⟩, ⟨%d6, H6⟩, ⟨%d7, H7⟩⟩
      rw [← hslot d5 hd5]
      iapply (runMiddle c (grid0.coords t) _ _ _ _ _ _ _ _ _ _ _ _ _ _ _ _ _ _ _ _ _ _ _ _ _ _ _ _ h0 h1 h2 (Facts₀.k0_off1_inb (grid0.coords t) h1) (iblk m c 0 t) (iblk m c 1 t) (iblk m c 2 t) (iblk m c 3 t) (iblk m c 4 t) (iblk m c 5 t) (iblk m c 6 t) _ (nw0 m c) (nw1 m c) (nw2 m c) (nb0 m c) (nb1 m c) d5 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, HS0, HS1, HS2, HS3, HS4, ⟨%d, %hd, HS5⟩⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexists d; isplitr
          · ipureintro; exact fun _ inb => hd inb
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- the last point
      have h2 : ¬computes (grid0.coords t) := fun h => h8 ((computes_iff t).mp h)
      iintro ⟨⟨⟨HS0, HS1, HS2, HS3, HS4, ⟨%d5, %hd5, HS5⟩⟩, Hg⟩, Ho, ⟨%d0, H0⟩, ⟨%d1, H1⟩, ⟨%d2, H2⟩, ⟨%d3, H3⟩, ⟨%d4, H4⟩, ⟨%d5', H5⟩, ⟨%d6, H6⟩, ⟨%d7, H7⟩⟩
      rw [← hslot d5 hd5]
      iapply (runLast c (grid0.coords t) _ _ _ _ _ _ _ _ _ _ _ _ _ _ _ _ _ _ _ _ _ _ _ _ _ _ _ _ h0 h1 h2 (Facts₀.k0_off1_inb (grid0.coords t) h1) (iblk m c 0 t) (iblk m c 1 t) (iblk m c 2 t) (iblk m c 3 t) (iblk m c 4 t) (iblk m c 5 t) (iblk m c 6 t) _ (nw0 m c) (nw1 m c) (nw2 m c) (nb0 m c) (nb1 m c) d5 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexists d5; isplitr
          · ipureintro; exact fun h => absurd h h8
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the region's own. -/
theorem carried_in (c : Dev nD) : Pipeline.ΦA spec0 c ⊢ (dats m 0 c).Φ 0 := by
  rw [show (dats m 0 c).Φ 0 = Carried m c 0 (Nat.zero_le _) from rfl, Carried_zero m c 0 _ rfl]
  try exact Idealize.SL.BI.Entails.refl _

/-- After the last point it gives the region's own back: what the scratch holds is forgotten. -/
theorem carried_out (c : Dev nD) : (dats m 0 c).Φ (Fin.last cfg0.N) ⊢ Pipeline.ΦA spec0 c := by
  rw [show (dats m 0 c).Φ (Fin.last cfg0.N) = Carried m c (Fin.last cfg0.N).val (Nat.le_of_lt_succ (Fin.last cfg0.N).isLt) from rfl,
    Carried_pos m c _ _ (by rw [Fin.val_last]; have := nine; omega), scratch_any]
  iintro ⟨⟨HS0, HS1, HS2, HS3, HS4, ⟨%d, -, HS5⟩⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run -/

set_option backward.isDefEq.respectTransparency.types false in
/-- Every weakly fair execution of the program terminates, every array of the pipeline ending at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Spec.lean ====
/-
  The function both programs compute, over the extended reals: three dense layers on each of the 16384 rows of the input,
  a rectified linear unit after the first two. A dense layer sends a row h to the row whose entry j is the sum over k of
  h k · W (k, j), plus the bias's entry j. Nothing here depends on a program.
-/
import Idealize.ShloMosaic.Lib.ValueIdx
import Idealize.ShloMosaic.PureOps.Ideal

noncomputable section

namespace Cert.Spec

open Idealize.ShloMosaic Idealize.ShloMosaic.ValueIdx

/-- One dense layer at one row: entry j of the row h times the matrix w, plus the bias's entry j. -/
def dense {K N : ℕ} (h : Fin K → EReal) (w : (⟨2, ![K, N]⟩ : Shape).Idx → EReal) (b : Fin N → EReal) (j : Fin N) : EReal :=
  (∑ k : Fin K, h k * w (ix2 k j)) + b j

/-- The rectified linear unit on the extended reals. -/
def relu (v : EReal) : EReal := max v 0

/-- The three layers on one row of width 512. -/
def mlp3 (xr : Fin 512 → EReal) (w0 w1 w2 : (⟨2, ![512, 512]⟩ : Shape).Idx → EReal) (b0 b1 b2 : Fin 512 → EReal)
    (j : Fin 512) : EReal :=
  dense (fun k => relu (dense (fun k' => relu (dense xr w0 b0 k')) w1 b1 k)) w2 b2 j

/-- The whole result: entry (r, j) is the three layers on row r of the input, at j. -/
def net (x : (⟨2, ![16384, 512]⟩ : Shape).Idx → EReal) (w0 : (⟨2, ![512, 512]⟩ : Shape).Idx → EReal)
    (b0 : (⟨1, ![512]⟩ : Shape).Idx → EReal) (w1 : (⟨2, ![512, 512]⟩ : Shape).Idx → EReal)
    (b1 : (⟨1, ![512]⟩ : Shape).Idx → EReal) (w2 : (⟨2, ![512, 512]⟩ : Shape).Idx → EReal)
    (b2 : (⟨1, ![512]⟩ : Shape).Idx → EReal) : (⟨2, ![16384, 512]⟩ : Shape).Idx → EReal :=
  fun i => mlp3 (fun k => x (ix2 (i 0) k)) w0 w1 w2 (fun j => b0 (ix1 j)) (fun j => b1 (ix1 j)) (fun j => b2 (ix1 j)) (i 1)

/-- The three layers depend on their seven arguments only. -/
theorem mlp3_congr {xr xr' : Fin 512 → EReal} {w0 w0' w1 w1' w2 w2' : (⟨2, ![512, 512]⟩ : Shape).Idx → EReal}
    {b0 b0' b1 b1' b2 b2' : Fin 512 → EReal} (hx : xr = xr') (h0 : w0 = w0') (h1 : w1 = w1') (h2 : w2 = w2')
    (g0 : b0 = b0') (g1 : b1 = b1') (g2 : b2 = b2') (q : Fin 512) :
    mlp3 xr w0 w1 w2 b0 b1 b2 q = mlp3 xr' w0' w1' w2' b0' b1' b2' q := by
  subst hx h0 h1 h2 g0 g1 g2; rfl

/-- The whole result depends on the seven argument arrays only. -/
theorem net_congr {x x' : (⟨2, ![16384, 512]⟩ : Shape).Idx → EReal} {w0 w0' w1 w1' w2 w2' : (⟨2, ![512, 512]⟩ : Shape).Idx → EReal}
    {b0 b0' b1 b1' b2 b2' : (⟨1, ![512]⟩ : Shape).Idx → EReal} (hx : x = x') (h0 : w0 = w0') (g0 : b0 = b0') (h1 : w1 = w1')
    (g1 : b1 = b1') (h2 : w2 = w2') (g2 : b2 = b2') :
    net x w0 b0 w1 b1 w2 b2 = net x' w0' b0' w1' b1' w2' b2' := by
  subst hx h0 g0 h1 g1 h2 g2; rfl

end Cert.Spec

end
-- ==== Proof.Layer.lean ====
/-
  One dense layer of a kernel read at an entry, over the extended reals: the matrix product into a zero accumulator at
  (p, q), plus the bias row spread over all rows, is the dense layer's entry q on row p of the left operand; capped below by
  a zero it is the rectified entry. Any row count and widths, any float formats. Independent of any program.
-/
import proofs.«142892_g2000705975908629_pallasbulk_322_25_alg».proof.Proof.LibPlainDot
import proofs.«142892_g2000705975908629_pallasbulk_322_25_alg».proof.Proof.Spec
import Idealize.ShloMosaic.Lib.ValueLayout

noncomputable section

namespace Cert.Layer

open Idealize.ShloMosaic Idealize.ShloMosaic.ValueIdx Cert.Spec

/-- The last layer at (p, q): the product plus the bias row's entry q. -/
theorem last_apply {M K N : ℕ} {φ₁ φ₂ φ₃ : FTy}
    (wf : DotDims.WF ⟨2, ![M, K]⟩ ⟨2, ![K, N]⟩ ⟨2, ![M, N]⟩ [1] [0] [0] [1] [] [])
    (l : FVec Ideal ⟨2, ![M, K]⟩ φ₁) (w : FVec Ideal ⟨2, ![K, N]⟩ φ₂) (b : FVec Ideal ⟨2, ![1, N]⟩ φ₃)
    (hb : (⟨2, ![1, N]⟩ : Shape).Broadcasts ⟨2, ![M, N]⟩) (p : Fin M) (q : Fin N) :
    (FloatOps.matmul (Cert.Lib.plainDot M K N wf) none l w (constant (F := Ideal) ⟨2, ![M, N]⟩ .f32 0x00000000#32) (ix2 p q) : EReal)
        + broadcastTo ⟨2, ![M, N]⟩ b hb (ix2 p q)
      = dense (fun k => l (ix2 p k)) w (fun j => b (ix2 0 j)) q := by
  rw [Cert.Lib.matmul_zero_apply, broadcastTo_1b_ab_apply]
  rfl

/-- A hidden layer at (p, q): the same, capped below by a zero z. -/
theorem hidden_apply {M K N : ℕ} {φ₁ φ₂ φ₃ : FTy}
    (wf : DotDims.WF ⟨2, ![M, K]⟩ ⟨2, ![K, N]⟩ ⟨2, ![M, N]⟩ [1] [0] [0] [1] [] [])
    (l : FVec Ideal ⟨2, ![M, K]⟩ φ₁) (w : FVec Ideal ⟨2, ![K, N]⟩ φ₂) (b : FVec Ideal ⟨2, ![1, N]⟩ φ₃)
    (hb : (⟨2, ![1, N]⟩ : Shape).Broadcasts ⟨2, ![M, N]⟩) (z : EReal) (hz : z = 0) (p : Fin M) (q : Fin N) :
    max ((FloatOps.matmul (Cert.Lib.plainDot M K N wf) none l w (constant (F := Ideal) ⟨2, ![M, N]⟩ .f32 0x00000000#32) (ix2 p q) : EReal)
        + broadcastTo ⟨2, ![M, N]⟩ b hb (ix2 p q)) z
      = relu (dense (fun k => l (ix2 p k)) w (fun j => b (ix2 0 j)) q) := by
  subst hz
  rw [last_apply]
  rfl

end Cert.Layer

end
-- ==== Proof.Ideal.Tile.lean ====
/-
  What the kernel's body computes, read entry by entry over the extended reals. Narrowing an array to a shorter float
  format changes no entry. The tile a computing point stores, at row p and column q, is the sum over k of the second
  hidden layer's entry (p, k) times the third weight's (k, q); a hidden layer's entry is the rectified sum of the layer
  before times its weight, plus its bias. The drained tile adds the last bias: all three layers of row p of the input
  tile, at column q.
-/
import proofs.«142892_g2000705975908629_pallasbulk_322_25_alg».proof.Proof.Gen.KernelIdeal.Skeleton
import proofs.«142892_g2000705975908629_pallasbulk_322_25_alg».proof.Proof.Layer
import Idealize.ShloMosaic.Lib.ValueLayout
import Idealize.ShloMosaic.Lib.Pipeline.Value
import Idealize.ShloMosaic.Lib.IdealHost

set_option maxRecDepth 16384

noncomputable section

namespace Cert.KernelIdeal.Tile

open Idealize.ShloMosaic Idealize.ShloMosaic.ValueIdx Cert.KernelIdeal Cert.KernelIdeal.Gen Cert.Spec

/-- Narrowing the first, second and third weight matrices keeps every entry. -/
theorem narrow1 (v : Vec Ideal S512x512 .f32) : k0_pay1 (F := Ideal) v = v := by
  unfold k0_pay1; exact shapeCast_self _ _
theorem narrow2 (v : Vec Ideal S512x512 .f32) : k0_pay2 (F := Ideal) v = v := by
  unfold k0_pay2; exact shapeCast_self _ _
theorem narrow3 (v : Vec Ideal S512x512 .f32) : k0_pay3 (F := Ideal) v = v := by
  unfold k0_pay3; exact shapeCast_self _ _
/-- Narrowing the first and second bias rows keeps every entry. -/
theorem narrow4 (v : Vec Ideal S1x512 .f32) : k0_pay4 (F := Ideal) v = v := by
  unfold k0_pay4; simp only [shapeCast_self]; rfl
theorem narrow5 (v : Vec Ideal S1x512 .f32) : k0_pay5 (F := Ideal) v = v := by
  unfold k0_pay5; simp only [shapeCast_self]; rfl

/-- The stored tile at (p, q): the second hidden layer's row p times column q of the third weight. -/
theorem tile_apply (x0 : Vec Ideal S2048x512 .f32) (w0 w1 w2 : Vec Ideal S512x512 .bf16) (b0 b1 : Vec Ideal S1x512 .bf16)
    (u : Fin 1) (p : Fin 2048) (q : Fin 512) :
    k0_pay7 (F := Ideal) x0 w0 b0 w1 b1 w2 (ix3 u p q)
      = ∑ k : Fin 512, relu (dense (fun k' => relu (dense (fun k'' => x0 (ix2 p k'')) w0 (fun j => b0 (ix2 0 j)) k')) w1 (fun j => b1 (ix2 0 j)) k) * w2 (ix2 k q) := by
  unfold k0_pay7
  refine (shapeCast_ab_1ab_apply _ _ u p q).trans ?_
  refine (Cert.Lib.matmul_zero_apply (φ₁ := .bf16) (φ₂ := .bf16) _ none _ _ p q).trans ?_
  refine Finset.sum_congr rfl fun k _ => congrArg (· * w2 (ix2 k q)) ?_
  refine (Cert.Layer.hidden_apply (φ₁ := .bf16) (φ₂ := .bf16) (φ₃ := .bf16) _ _ _ _ _ _ Ideal.ofBits_zero_bf16 p k).trans ?_
  refine congrArg relu (congrArg (fun h => dense h w1 (fun j => b1 (ix2 0 j)) k) (funext fun k' => ?_))
  exact Cert.Layer.hidden_apply (φ₁ := .f32) (φ₂ := .bf16) (φ₃ := .bf16) _ _ _ _ _ _ Ideal.ofBits_zero_bf16 p k'

/-- The drained tile at (p, q): the tile read from the buffer's half, plus the last bias's entry q. -/
theorem drained_apply (v12 : Vec Ideal S1x2048x512 .f32) (v14 : Vec Ideal S1x512 .f32) (p : Fin 2048) (q : Fin 512) :
    k0_pay6 (F := Ideal) v12 v14 (ix2 p q) = v12 (ix3 0 p q) + v14 (ix2 0 q) := by
  unfold k0_pay6
  show shapeCast S2048x512 v12 _ (ix2 p q) + broadcastTo S2048x512 (shapeCast S1x512 v14 _) _ (ix2 p q) = _
  rw [shapeCast_1ab_ab_apply, broadcastTo_1b_ab_apply, shapeCast_self]

/-- So a drained tile, over the narrowed weights and biases, is the three layers of the input tile's rows. -/
theorem out_apply (x0 : Vec Ideal S2048x512 .f32) (w0 w1 w2 : Vec Ideal S512x512 .f32) (b0 b1 b2 : Vec Ideal S1x512 .f32)
    (p : Fin 2048) (q : Fin 512) :
    k0_pay6 (F := Ideal) (k0_pay7 x0 (k0_pay1 w0) (k0_pay4 b0) (k0_pay2 w1) (k0_pay5 b1) (k0_pay3 w2)) b2 (ix2 p q)
      = mlp3 (fun k => x0 (ix2 p k)) w0 w1 w2 (fun j => b0 (ix2 0 j)) (fun j => b1 (ix2 0 j)) (fun j => b2 (ix2 0 j)) q := by
  rw [drained_apply, tile_apply, narrow1, narrow2, narrow3, narrow4, narrow5]
  rfl

end Cert.KernelIdeal.Tile

end
-- ==== Proof.Ideal.Final.lean ====
import proofs.«142892_g2000705975908629_pallasbulk_322_25_alg».proof.Proof.Ideal.Track
import proofs.«142892_g2000705975908629_pallasbulk_322_25_alg».proof.Proof.Ideal.Tile

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Hand Cert.Spec Idealize.ShloMosaic.ValueIdx

variable (m : (ℓ : Loc nD τ sig) → Buf (Elt Ideal) ℓ) (ρ : Dev nD → PrngReg)

/-! ## The windows' blocks as entries of the arrays

The input window's block at point t (t < 8) is rows 2048 t to 2048 t + 2047 of the input; the six weight and bias windows
always hold their whole arrays; the output window's block at a draining point t is rows 2048 (t - 1) on. -/

theorem idx_in : ∀ t : Fin cfg0.N, t.val < 8 → win0_0.index t (0 : Fin 2) = t.val ∧ win0_0.index t (1 : Fin 2) = 0 :=
  (by decide +kernel : ∀ t : Fin grid0.N, t.val < 8 → win0_0.index t (0 : Fin 2) = t.val ∧ win0_0.index t (1 : Fin 2) = 0)
theorem idx_res : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)
theorem idx_out : ∀ t : Fin cfg0.N, 1 ≤ t.val → win0_7.index t (0 : Fin 2) = t.val - 1 ∧ win0_7.index t (1 : Fin 2) = 0 :=
  (by decide +kernel : ∀ t : Fin grid0.N, 1 ≤ t.val → win0_7.index t (0 : Fin 2) = t.val - 1 ∧ win0_7.index t (1 : Fin 2) = 0)

/-- The bias rows the region finds are the bias vectors laid out as one row. -/
theorem row0 (c : Dev nD) : (V m c main_v0 : S1x512.Idx → EReal) = shapeCast S1x512 (m ((c : Thread nD τ).loc main_arg2)) shapeCasts_S512_S1x512 := by
  dsimp only [Gen.V, Gen.hostOps0]; after_results; rfl
theorem row1 (c : Dev nD) : (V m c main_v1 : S1x512.Idx → EReal) = shapeCast S1x512 (m ((c : Thread nD τ).loc main_arg4)) shapeCasts_S512_S1x512 := by
  dsimp only [Gen.V, Gen.hostOps0]; after_results; rfl
theorem row2 (c : Dev nD) : (V m c main_v2 : S1x512.Idx → EReal) = shapeCast S1x512 (m ((c : Thread nD τ).loc main_arg6)) shapeCasts_S512_S1x512 := by
  dsimp only [Gen.V, Gen.hostOps0]; after_results; rfl

/-- Entry (p, k) of the input tile at point t is entry (2048 t + p, k) of the input. -/
theorem in_tile_apply (c : Dev nD) (t : Fin cfg0.N) (ht : t.val < 8) (p : Fin 2048) (k : Fin 512) :
    (iblk m c 0 t : Vec Ideal S2048x512 .f32) (ix2 p k)
      = (m ((c : Thread nD τ).loc main_arg0) : S16384x512.Idx → EReal) (ix2 (⟨2048 * t.val + p.val, by have := p.isLt; omega⟩ : Fin 16384) k) := by
  unfold iblk
  rw [View.read_apply]
  show V m c main_arg0 _ = _
  rw [V_main_arg0]
  congr 1; funext a; apply Fin.ext
  obtain ⟨e0, e1⟩ := idx_in t ht
  match a with
  | ⟨0, _⟩ => show win0_0.index t (0 : Fin 2) * 2048 + 1 * p.val = 2048 * t.val + p.val; rw [e0]; omega
  | ⟨1, _⟩ => show win0_0.index t (1 : Fin 2) * 512 + 1 * k.val = k.val; rw [e1]; omega

theorem w0_block (c : Dev nD) (t : Fin cfg0.N) : (iblk m c 1 t : Vec Ideal S512x512 .f32) = m ((c : Thread nD τ).loc main_arg1) := by
  funext y; unfold iblk; rw [View.read_apply]; show V m c main_arg1 _ = _; rw [V_main_arg1]
  congr 1; funext a; apply Fin.ext
  obtain ⟨⟨e0, e1⟩, -⟩ := idx_res t
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega
theorem w1_block (c : Dev nD) (t : Fin cfg0.N) : (iblk m c 3 t : Vec Ideal S512x512 .f32) = m ((c : Thread nD τ).loc main_arg3) := by
  funext y; unfold iblk; rw [View.read_apply]; show V m c main_arg3 _ = _; rw [V_main_arg3]
  congr 1; funext a; apply Fin.ext
  obtain ⟨-, -, ⟨e0, e1⟩, -⟩ := idx_res t
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega
theorem w2_block (c : Dev nD) (t : Fin cfg0.N) : (iblk m c 5 t : Vec Ideal S512x512 .f32) = m ((c : Thread nD τ).loc main_arg5) := by
  funext y; unfold iblk; rw [View.read_apply]; show V m c main_arg5 _ = _; rw [V_main_arg5]
  congr 1; funext a; apply Fin.ext
  obtain ⟨-, -, -, -, ⟨e0, e1⟩, -⟩ := idx_res t
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega

/-- Entry (0, j) of a bias window's block is entry j of the bias vector. -/
theorem b0_block (c : Dev nD) (t : Fin cfg0.N) (j : Fin 512) :
    (iblk m c 2 t : Vec Ideal S1x512 .f32) (ix2 0 j) = (m ((c : Thread nD τ).loc main_arg2) : S512.Idx → EReal) (ix1 j) := by
  unfold iblk; rw [View.read_apply]; show V m c main_v0 _ = _; rw [row0]
  refine Eq.trans (congrArg _ ?_) (shapeCast_a_1a_apply _ _ 0 j)
  funext a; apply Fin.ext
  obtain ⟨-, ⟨e0, e1⟩, -⟩ := idx_res t
  match a with
  | ⟨0, _⟩ => show win0_2.index t (0 : Fin 2) * 1 + 1 * 0 = 0; rw [e0]
  | ⟨1, _⟩ => show win0_2.index t (1 : Fin 2) * 512 + 1 * j.val = j.val; rw [e1]; omega
theorem b1_block (c : Dev nD) (t : Fin cfg0.N) (j : Fin 512) :
    (iblk m c 4 t : Vec Ideal S1x512 .f32) (ix2 0 j) = (m ((c : Thread nD τ).loc main_arg4) : S512.Idx → EReal) (ix1 j) := by
  unfold iblk; rw [View.read_apply]; show V m c main_v1 _ = _; rw [row1]
  refine Eq.trans (congrArg _ ?_) (shapeCast_a_1a_apply _ _ 0 j)
  funext a; apply Fin.ext
  obtain ⟨-, -, -, ⟨e0, e1⟩, -⟩ := idx_res t
  match a with
  | ⟨0, _⟩ => show win0_4.index t (0 : Fin 2) * 1 + 1 * 0 = 0; rw [e0]
  | ⟨1, _⟩ => show win0_4.index t (1 : Fin 2) * 512 + 1 * j.val = j.val; rw [e1]; omega
theorem b2_block (c : Dev nD) (t : Fin cfg0.N) (j : Fin 512) :
    (iblk m c 6 t : Vec Ideal S1x512 .f32) (ix2 0 j) = (m ((c : Thread nD τ).loc main_arg6) : S512.Idx → EReal) (ix1 j) := by
  unfold iblk; rw [View.read_apply]; show V m c main_v2 _ = _; rw [row2]
  refine Eq.trans (congrArg _ ?_) (shapeCast_a_1a_apply _ _ 0 j)
  funext a; apply Fin.ext
  obtain ⟨-, -, -, -, -, ⟨e0, e1⟩⟩ := idx_res t
  match a with
  | ⟨0, _⟩ => show win0_6.index t (0 : Fin 2) * 1 + 1 * 0 = 0; rw [e0]
  | ⟨1, _⟩ => show win0_6.index t (1 : Fin 2) * 512 + 1 * j.val = j.val; rw [e1]; omega

/-! ## The result array -/

/-- What the output array ends holding: the three layers of the arguments, row by row. -/
abbrev result (c : Dev nD) : S16384x512.Idx → EReal :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The tile a draining point t leaves in the output buffer is rows 2048 (t - 1) on of the result. -/
theorem outTile_apply (c : Dev nD) (t : Fin cfg0.N) (ht : 1 ≤ t.val) (p : Fin 2048) (q : Fin 512) :
    outTile m c t (ix2 p q) = result m c (ix2 (⟨2048 * (t.val - 1) + p.val, by have := p.isLt; have := t.isLt; have := nine; omega⟩ : Fin 16384) q) := by
  have hN : t.val < 9 := lt_of_lt_of_eq t.isLt nine
  unfold outTile tile nw0 nw1 nw2 nb0 nb1
  refine (Tile.out_apply (iblk m c 0 (prevPt t)) (iblk m c 1 pt0) (iblk m c 3 pt0) (iblk m c 5 pt0) (iblk m c 2 pt0) (iblk m c 4 pt0) (iblk m c 6 t) p q).trans ?_
  exact mlp3_congr (funext fun k => in_tile_apply m c (prevPt t) (by unfold prevPt; dsimp only; omega) p k)
    (w0_block m c pt0) (w1_block m c pt0) (w2_block m c pt0)
    (funext fun j => b0_block m c pt0 j) (funext fun j => b1_block m c pt0 j) (funext fun j => b2_block m c t j) q

/-- The same, as a function of the position in the tile. -/
theorem outTile_eq (c : Dev nD) (t : Fin cfg0.N) (ht : 1 ≤ t.val) :
    outTile m c t = fun y : S2048x512.Idx =>
      result m c (ix2 (⟨2048 * (t.val - 1) + (y 0).val, by have h2 : (y 0).val < 2048 := (y 0).isLt; have := t.isLt; have := nine; omega⟩ : Fin 16384) (y 1)) := by
  funext y
  exact (congrArg (outTile m c t) (eq_ix2 y)).trans (outTile_apply m c t ht (y 0) (y 1))

/-- What a draining point writes back is its block of the result. -/
theorem flushed_eq (c : Dev nD) (t : Fin cfg0.N) (ht : 1 ≤ t.val) :
    (dats m 0 c).flushed 7 t = ((cfg0.win 7).blk t).view.read (Elt Ideal) (result m c) := by
  show (cfg0.win 7).cut (grid0.coords t) ((dats m 0 c).after 7 t) = _
  rw [after7, outTile_eq m c t ht]
  funext j
  show result m c (ix2 (⟨2048 * (t.val - 1) + (j 0).val, _⟩ : Fin 16384) (j 1)) = result m c (((cfg0.win 7).blk t).view.emb j)
  congr 1; funext a; apply Fin.ext
  obtain ⟨e0, e1⟩ := idx_out t ht
  match a with
  | ⟨0, _⟩ => show 2048 * (t.val - 1) + (j 0).val = win0_7.index t (0 : Fin 2) * 2048 + 1 * (j 0).val; rw [e0]; omega
  | ⟨1, _⟩ => show (j 1).val = win0_7.index t (1 : Fin 2) * 512 + 1 * (j 1).val; rw [e1]; omega

/-- An index of the output array is in point t's block iff each coordinate is in the block's range on its axis. -/
theorem mem_blk (t : Fin cfg0.N) (i : S16384x512.Idx) :
    i ∈ ((cfg0.win 7).blk t).view.set ↔ ∀ a : Fin 2, win0_7.index t a * S2048x512.size a ≤ (i a).val ∧ (i a).val < win0_7.index t a * S2048x512.size a + S2048x512.size a := by
  show i ∈ ((View.whole main_v3).slice (win0_7.rect t)).set ↔ _
  rw [View.set_slice_whole, Rect.mem_set_unit]
  exact Iff.rfl

/-- Every row of the output is in the block of the draining point after the one that computed it. -/
theorem covered (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hlt : (i 0).val / 2048 + 1 < cfg0.N := by rw [nine]; omega
  have h1 : 1 ≤ (⟨(i 0).val / 2048 + 1, hlt⟩ : Fin cfg0.N).val := Nat.le_add_left _ _
  refine ⟨⟨(i 0).val / 2048 + 1, hlt⟩, (out_flush_iff _).mpr h1, ?_⟩
  rw [mem_blk]
  obtain ⟨e0, e1⟩ := idx_out ⟨(i 0).val / 2048 + 1, hlt⟩ h1
  intro a
  match a with
  | ⟨0, _⟩ =>
    show win0_7.index ⟨(i 0).val / 2048 + 1, hlt⟩ (0 : Fin 2) * 2048 ≤ (i 0).val ∧ (i 0).val < win0_7.index ⟨(i 0).val / 2048 + 1, hlt⟩ (0 : Fin 2) * 2048 + 2048
    rw [e0]; dsimp only; omega
  | ⟨1, _⟩ =>
    show win0_7.index ⟨(i 0).val / 2048 + 1, hlt⟩ (1 : Fin 2) * 512 ≤ (i 1).val ∧ (i 1).val < win0_7.index ⟨(i 0).val / 2048 + 1, hlt⟩ (1 : Fin 2) * 512 + 512
    rw [e1]; omega

/-- The output array after the run is the result. -/
theorem final (c : Dev nD) : (dats m 0 c).arrAt 7 cfg0.N = result m c :=
  (dats m 0 c).arrAt_eq_of_cover 7 (result m c) (fun t hf => flushed_eq m c t ((out_flush_iff t).mp hf)) covered

/-- An argument the pipeline stages through an input window is never written back, so its array ends at its contents at
    entry; an argument only a host reshape reads is outside the region altogether. Either way it ends as launched. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have staged (w : Fin cfg0.W) (hw : (cfg0.win w).isOut = false) :
      r.2.mem (((cfgs 0).spec w).arr.view.loc (c.tc : Thread nD τ)) = V m c (Pipeline.arrRef spec0 w) :=
    ((h c).1 w).trans (((dats m 0 c).arrAt_in w hw _).trans (A_eq m c w))
  have outside (b : Ref sig .tc) (hs : b.isScoped = false) (ha : ∀ w, (spec0 w).arr.view.ref ≠ b) :
      r.2.mem ((c.tc : Thread nD τ).loc b) = V m c b :=
    (h c).2 b (Pipeline.mem_restRefs_of b hs ha)
  exact ⟨(staged 0 rfl).trans (V_main_arg0 m c), (staged 1 rfl).trans (V_main_arg1 m c),
    (outside main_arg2 (by decide) (by decide)).trans (V_main_arg2 m c), (staged 3 rfl).trans (V_main_arg3 m c),
    (outside main_arg4 (by decide) (by decide)).trans (V_main_arg4 m c), (staged 5 rfl).trans (V_main_arg5 m c),
    (outside main_arg6 (by decide) (by decide)).trans (V_main_arg6 m c)⟩

/-- The run, read: the output array at the three layers of the arguments, the arguments unchanged. -/
theorem run_value : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).1 7).trans (final m c), kept m r h c⟩) (run_main m ρ)

end Cert.KernelIdeal.Final

end
-- ==== Proof.LibScatterSet.lean ====
/-
  A StableHLO scatter whose body returns the update (jnp's x.at[...].set(v)), read at an index. The scatter is a fold over
  the update indices, each overwriting the element it lands on. So at an index that exactly one update index lands on, the
  result is that update's element, whatever the operand held and whatever the other updates did; and a fold of
  overwrites in general reads, at a position, the value the writes to that position share, when some write hits it.
  Any shapes, any dimension numbers, any element type. Independent of any program.
-/
import Idealize.ShloMosaic.PureOps.ShapeOps

namespace Cert.Lib

open Idealize.ShloMosaic

/-- A fold of overwrites, read at a position a: step n either writes val n at its target tgt n or does nothing. If every
    step that targets a writes the same v, the fold holds v at a as soon as some step targets a, else what it began with. -/
theorem foldl_overwrite_apply {ι A B : Type} [DecidableEq A] (g : (A → B) → ι → (A → B)) (tgt : ι → Option A) (val : ι → B)
    (hsome : ∀ r n a0, tgt n = some a0 → ∀ a, g r n a = if a = a0 then val n else r a)
    (hnone : ∀ r n, tgt n = none → g r n = r)
    (a : A) (v : B) (hv : ∀ n, tgt n = some a → val n = v) :
    ∀ (L : List ι) (r : A → B), (L.foldl g r) a = if ∃ n ∈ L, tgt n = some a then v else r a := by
  classical
  intro L
  induction L with
  | nil => intro r; simp
  | cons n L ih =>
    intro r
    rw [List.foldl_cons, ih]
    by_cases hL : ∃ n' ∈ L, tgt n' = some a
    · rw [if_pos hL, if_pos (by obtain ⟨n', hn', h⟩ := hL; exact ⟨n', List.mem_cons_of_mem _ hn', h⟩)]
    · rw [if_neg hL]
      cases hn : tgt n with
      | none =>
        rw [hnone r n hn, if_neg]
        rintro ⟨n', hn', h⟩
        rcases List.mem_cons.mp hn' with rfl | hn''
        · rw [hn] at h; cases h
        · exact hL ⟨n', hn'', h⟩
      | some a0 =>
        rw [hsome r n a0 hn a]
        by_cases ha : a = a0
        · subst ha
          rw [if_pos rfl, if_pos ⟨n, List.mem_cons_self, hn⟩]
          exact hv n hn
        · rw [if_neg ha, if_neg]
          rintro ⟨n', hn', h⟩
          rcases List.mem_cons.mp hn' with rfl | hn''
          · rw [hn] at h; exact ha (Option.some.inj h).symm
          · exact hL ⟨n', hn'', h⟩

/-- An overwriting scatter at an index i that update index j lands on, and no other: the update at j. -/
theorem scatter_set_apply {s si u : Shape} {α : Type} {w : Nat} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine (foldl_overwrite_apply _ (fun n => d.resultIdx? (u.rowMajor.symm n) idx) (fun n => upd (u.rowMajor.symm n))
    ?_ ?_ i (upd j) ?_ _ x).trans (if_pos ⟨u.rowMajor j, List.mem_finRange _, by rw [Equiv.symm_apply_apply]; exact hj⟩)
  · intro r n a0 h a
    show (match d.resultIdx? (u.rowMajor.symm n) idx with
      | some i => fun i' => if i' = i then (fun _ b => b) (r i) (upd (u.rowMajor.symm n)) else r i'
      | none => r) a = _
    rw [h]
  · intro r n h
    show (match d.resultIdx? (u.rowMajor.symm n) idx with
      | some i => fun i' => if i' = i then (fun _ b => b) (r i) (upd (u.rowMajor.symm n)) else r i'
      | none => r) = _
    rw [h]
  · intro n hn
    rw [huniq _ hn]

/-- An overwriting scatter whose every update index lands on the operand index equal to itself (an update as large as the
    operand, written at the origin) gives the updates, whatever the operand held. -/
theorem scatter_whole {s si : Shape} {α : Type} {w : Nat} (d : ScatterDims s si s) (x : s.Idx → α) (idx : IVec si w)
    (upd : s.Idx → α) (h : ∀ j, d.resultIdx? j idx = some j) :
    Host.scatter d (fun _ b => b) x idx upd = upd :=
  funext fun i => scatter_set_apply d x idx upd i i (h i) fun j' hj' => by
    rw [h j'] at hj'; exact Option.some.inj hj'

end Cert.Lib
-- ==== Proof.Ref.Pad.lean ====
import proofs.«142892_g2000705975908629_pallasbulk_322_25_alg».proof.Proof.Gen.ReferenceIdeal.Value
import proofs.«142892_g2000705975908629_pallasbulk_322_25_alg».proof.Proof.LibScatterSet
import Idealize.ShloMosaic.Lib.StableHlo.Run
import Idealize.ShloMosaic.Lib.ValueIdx
import Idealize.ShloMosaic.PureOps.Ideal

set_option maxRecDepth 16384

noncomputable section

namespace Cert.ReferenceIdeal.Pad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal Cert.ReferenceIdeal.Gen Idealize.ShloMosaic.ValueIdx

variable (m : (ℓ : Loc nD τ sig) → Buf (Elt Ideal) ℓ) (ρ : Dev nD → PrngReg)

/-! ## The padded arrays are the arguments

The reference pads each argument into a zero array of the rounded-up extents by an overwriting scatter. Here no
extent needs rounding, so the input and the weights overwrite all of their zero arrays, and each bias vector overwrites
the one row of its zero row. -/

/-- An update as large as the operand, no scatter index: update index j lands on operand index j. -/
theorem lands_input {w : Nat} (idx : IVec S0 w) (j : S16384x512.Idx) :
    scatter_S16384x512_S0_S16384x512_01_n_n_0.resultIdx? j idx = some j := by
  have hs : ∀ a, scatter_S16384x512_S0_S16384x512_01_n_n_0.start j idx a = 0 := fun a => by
    unfold ScatterDims.start
    exact dif_neg List.not_mem_nil
  have hw : ∀ a, scatter_S16384x512_S0_S16384x512_01_n_n_0.window j a = (j a).val := fun a => by
    match a with
    | ⟨0, _⟩ => rfl
    | ⟨1, _⟩ => rfl
  unfold ScatterDims.resultIdx?
  rw [dif_pos (fun a => by rw [hs, hw]; have := (j a).isLt; omega)]
  refine congrArg some (funext fun a => Fin.ext ?_)
  show (scatter_S16384x512_S0_S16384x512_01_n_n_0.start j idx a + scatter_S16384x512_S0_S16384x512_01_n_n_0.window j a).toNat = (j a).val
  rw [hs, hw]; simp

theorem lands_weight {w : Nat} (idx : IVec S0 w) (j : S512x512.Idx) :
    scatter_S512x512_S0_S512x512_01_n_n_0.resultIdx? j idx = some j := by
  have hs : ∀ a, scatter_S512x512_S0_S512x512_01_n_n_0.start j idx a = 0 := fun a => by
    unfold ScatterDims.start
    exact dif_neg List.not_mem_nil
  have hw : ∀ a, scatter_S512x512_S0_S512x512_01_n_n_0.window j a = (j a).val := fun a => by
    match a with
    | ⟨0, _⟩ => rfl
    | ⟨1, _⟩ => rfl
  unfold ScatterDims.resultIdx?
  rw [dif_pos (fun a => by rw [hs, hw]; have := (j a).isLt; omega)]
  refine congrArg some (funext fun a => Fin.ext ?_)
  show (scatter_S512x512_S0_S512x512_01_n_n_0.start j idx a + scatter_S512x512_S0_S512x512_01_n_n_0.window j a).toNat = (j a).val
  rw [hs, hw]; simp

/-- A vector written at the one scatter index 0 into a one-row array: update index j lands on (0, j). -/
theorem lands_bias (idx : IVec S1 32) (hidx : ∀ k, idx k = 0#32) (j : S512.Idx) :
    scatter_S1x512_S1_S512_0_0_0_0.resultIdx? j idx = some (ix2 (0 : Fin 1) (j 0)) := by
  have hs : ∀ a, scatter_S1x512_S1_S512_0_0_0_0.start j idx a = 0 := fun a => by
    unfold ScatterDims.start
    split
    · rw [hidx]; rfl
    · rfl
  have hw0 : scatter_S1x512_S1_S512_0_0_0_0.window j 0 = 0 := rfl
  have hw1 : scatter_S1x512_S1_S512_0_0_0_0.window j 1 = (j 0).val := rfl
  have hj : (j 0).val < 512 := (j 0).isLt
  unfold ScatterDims.resultIdx?
  rw [dif_pos (fun a => by
    match a with
    | ⟨0, _⟩ =>
      show (0 : Int) ≤ scatter_S1x512_S1_S512_0_0_0_0.start j idx 0 + (scatter_S1x512_S1_S512_0_0_0_0.window j 0 : ℕ) ∧ scatter_S1x512_S1_S512_0_0_0_0.start j idx 0 + (scatter_S1x512_S1_S512_0_0_0_0.window j 0 : ℕ) < ((1 : ℕ) : Int)
      rw [hs, hw0]; decide
    | ⟨1, _⟩ =>
      show (0 : Int) ≤ scatter_S1x512_S1_S512_0_0_0_0.start j idx 1 + (scatter_S1x512_S1_S512_0_0_0_0.window j 1 : ℕ) ∧ scatter_S1x512_S1_S512_0_0_0_0.start j idx 1 + (scatter_S1x512_S1_S512_0_0_0_0.window j 1 : ℕ) < ((512 : ℕ) : Int)
      rw [hs, hw1]; omega)]
  refine congrArg some (funext fun a => Fin.ext ?_)
  match a with
  | ⟨0, _⟩ =>
    show (scatter_S1x512_S1_S512_0_0_0_0.start j idx 0 + (scatter_S1x512_S1_S512_0_0_0_0.window j 0 : ℕ)).toNat = 0
    rw [hs, hw0]; rfl
  | ⟨1, _⟩ =>
    show (scatter_S1x512_S1_S512_0_0_0_0.start j idx 1 + (scatter_S1x512_S1_S512_0_0_0_0.window j 1 : ℕ)).toNat = (j 0).val
    rw [hs, hw1]; simp

/-- So the one-row array reads, at (0, q), the vector's entry q. -/
theorem bias_row (x : S1x512.Idx → EReal) (idx : IVec S1 32) (hidx : ∀ k, idx k = 0#32) (b : S512.Idx → EReal) (q : Fin 512) :
    Host.scatter scatter_S1x512_S1_S512_0_0_0_0 (fun _ v => v) x idx b (ix2 (0 : Fin 1) q) = b (ix1 q) := by
  refine Cert.Lib.scatter_set_apply _ x idx b _ (ix1 q) (lands_bias idx hidx (ix1 q)) fun j' hj' => ?_
  rw [lands_bias idx hidx j'] at hj'
  have h1 := congrFun (Option.some.inj hj') (1 : Fin 2)
  funext a
  match a with
  | ⟨0, _⟩ => exact h1

/-- The arrays the region finds, read off the host prefix. -/
theorem x_pad (c : Dev nD) : (V m c main_v1 : S16384x512.Idx → EReal) = m ((c : Thread nD τ).loc main_arg0) := by
  dsimp only [Gen.V, Gen.hostOps0]
  after_results
  exact Cert.Lib.scatter_whole _ _ _ _ (lands_input _)
theorem w0_pad (c : Dev nD) : (V m c main_v3 : S512x512.Idx → EReal) = m ((c : Thread nD τ).loc main_arg1) := by
  dsimp only [Gen.V, Gen.hostOps0]
  after_results
  exact Cert.Lib.scatter_whole _ _ _ _ (lands_weight _)
theorem w1_pad (c : Dev nD) : (V m c main_v8 : S512x512.Idx → EReal) = m ((c : Thread nD τ).loc main_arg3) := by
  dsimp only [Gen.V, Gen.hostOps0]
  after_results
  exact Cert.Lib.scatter_whole _ _ _ _ (lands_weight _)
theorem w2_pad (c : Dev nD) : (V m c main_v13 : S512x512.Idx → EReal) = m ((c : Thread nD τ).loc main_arg5) := by
  dsimp only [Gen.V, Gen.hostOps0]
  after_results
  exact Cert.Lib.scatter_whole _ _ _ _ (lands_weight _)

theorem b0_pad (c : Dev nD) (q : Fin 512) :
    (V m c main_v6 : S1x512.Idx → EReal) (ix2 (0 : Fin 1) q) = (m ((c : Thread nD τ).loc main_arg2) : S512.Idx → EReal) (ix1 q) := by
  dsimp only [Gen.V, Gen.hostOps0]
  after_results
  exact bias_row _ _ (fun _ => rfl) _ q
theorem b1_pad (c : Dev nD) (q : Fin 512) :
    (V m c main_v11 : S1x512.Idx → EReal) (ix2 (0 : Fin 1) q) = (m ((c : Thread nD τ).loc main_arg4) : S512.Idx → EReal) (ix1 q) := by
  dsimp only [Gen.V, Gen.hostOps0]
  after_results
  exact bias_row _ _ (fun _ => rfl) _ q
theorem b2_pad (c : Dev nD) (q : Fin 512) :
    (V m c main_v16 : S1x512.Idx → EReal) (ix2 (0 : Fin 1) q) = (m ((c : Thread nD τ).loc main_arg6) : S512.Idx → EReal) (ix1 q) := by
  dsimp only [Gen.V, Gen.hostOps0]
  after_results
  exact bias_row _ _ (fun _ => rfl) _ q

end Cert.ReferenceIdeal.Pad

end
-- ==== Proof.Ref.Tile.lean ====
/-
  What the reference's kernel body computes on a tile of 128 rows, entry by entry over the extended reals: all three
  dense layers of row p of the input tile, at column q, a rectified linear unit after the first two.
-/
import proofs.«142892_g2000705975908629_pallasbulk_322_25_alg».proof.Proof.Gen.ReferenceIdeal.Skeleton
import proofs.«142892_g2000705975908629_pallasbulk_322_25_alg».proof.Proof.Layer
import Idealize.ShloMosaic.Lib.Pipeline.Value

set_option maxRecDepth 16384

noncomputable section

namespace Cert.ReferenceIdeal.Tile

open Idealize.ShloMosaic Idealize.ShloMosaic.ValueIdx Cert.ReferenceIdeal Cert.ReferenceIdeal.Gen Cert.Spec

theorem out_apply (x0 : Vec Ideal S128x512 .f32) (w0 : Vec Ideal S512x512 .f32) (b0 : Vec Ideal S1x512 .f32)
    (w1 : Vec Ideal S512x512 .f32) (b1 : Vec Ideal S1x512 .f32) (w2 : Vec Ideal S512x512 .f32) (b2 : Vec Ideal S1x512 .f32)
    (p : Fin 128) (q : Fin 512) :
    k0_pay1 (F := Ideal) x0 w0 b0 w1 b1 w2 b2 (ix2 p q)
      = mlp3 (fun k => x0 (ix2 p k)) w0 w1 w2 (fun j => b0 (ix2 0 j)) (fun j => b1 (ix2 0 j)) (fun j => b2 (ix2 0 j)) q := by
  unfold k0_pay1
  simp only [shapeCast_self]
  refine (Cert.Layer.last_apply (φ₁ := .f32) (φ₂ := .f32) (φ₃ := .f32) _ _ _ _ _ p q).trans ?_
  unfold mlp3
  refine congrArg (fun h => dense h w2 (fun j => b2 (ix2 0 j)) q) (funext fun k => ?_)
  refine (Cert.Layer.hidden_apply (φ₁ := .f32) (φ₂ := .f32) (φ₃ := .f32) _ _ _ _ _ _ Ideal.ofBits_zero_f32 p k).trans ?_
  refine congrArg relu (congrArg (fun h => dense h w1 (fun j => b1 (ix2 0 j)) k) (funext fun k' => ?_))
  exact Cert.Layer.hidden_apply (φ₁ := .f32) (φ₂ := .f32) (φ₃ := .f32) _ _ _ _ _ _ Ideal.ofBits_zero_f32 p k'

end Cert.ReferenceIdeal.Tile

end
-- ==== Proof.Ref.Final.lean ====
import proofs.«142892_g2000705975908629_pallasbulk_322_25_alg».proof.Proof.Ref.Pad
import proofs.«142892_g2000705975908629_pallasbulk_322_25_alg».proof.Proof.Ref.Tile

set_option maxRecDepth 16384

noncomputable section

namespace Cert.ReferenceIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal Cert.ReferenceIdeal.Gen Cert.ReferenceIdeal.Pad Cert.Spec Idealize.ShloMosaic.ValueIdx

variable (m : (ℓ : Loc nD τ sig) → Buf (Elt Ideal) ℓ) (ρ : Dev nD → PrngReg)

/-! ## The windows' blocks as entries of the arguments

The grid has 128 points; point t works on rows 128 t to 128 t + 127, and the six weight and bias windows always hold
their whole arrays. -/

theorem pts : cfg0.N = 128 := N_0

theorem idx_rows : ∀ t : Fin cfg0.N, (win0_0.index t (0 : Fin 2) = t.val ∧ win0_0.index t (1 : Fin 2) = 0)
    ∧ (win0_7.index t (0 : Fin 2) = t.val ∧ win0_7.index t (1 : Fin 2) = 0) :=
  (by decide +kernel : ∀ t : Fin grid0.N, _)
theorem idx_res : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem in_idx (t : Fin cfg0.N) (p : Fin 128) (k : Fin 512) (h : 128 * t.val + p.val < 16384) :
    ((cfg0.win 0).blk t).view.emb (ix2 p k) = (ix2 (⟨128 * t.val + p.val, h⟩ : Fin 16384) k : S16384x512.Idx) := by
  funext a; apply Fin.ext
  obtain ⟨⟨e0, e1⟩, -⟩ := idx_rows t
  match a with
  | ⟨0, _⟩ => show win0_0.index t (0 : Fin 2) * 128 + 1 * p.val = 128 * t.val + p.val; rw [e0]; omega
  | ⟨1, _⟩ => show win0_0.index t (1 : Fin 2) * 512 + 1 * k.val = k.val; rw [e1]; omega

theorem read_in_tile (X : S16384x512.Idx → EReal) (t : Fin cfg0.N) (p : Fin 128) (k : Fin 512) (h : 128 * t.val + p.val < 16384) :
    ((cfg0.win 0).blk t).view.read (Elt Ideal) X (ix2 p k) = X (ix2 (⟨128 * t.val + p.val, h⟩ : Fin 16384) k) := by
  rw [View.read_apply]; exact congrArg X (in_idx t p k h)
theorem in_arr (c : Dev nD) : (V m c (Pipeline.arrRef spec0 0) : S16384x512.Idx → EReal) = V m c main_v1 := rfl
theorem in_tile_apply (c : Dev nD) (t : Fin cfg0.N) (p : Fin 128) (k : Fin 512) :
    (iblk m c 0 t : Vec Ideal S128x512 .f32) (ix2 p k)
      = (m ((c : Thread nD τ).loc main_arg0) : S16384x512.Idx → EReal) (ix2 (⟨128 * t.val + p.val, by have := p.isLt; have := t.isLt; have := pts; omega⟩ : Fin 16384) k) := by
  unfold iblk
  exact (read_in_tile (V m c (Pipeline.arrRef spec0 0)) t p k _).trans (congrFun ((in_arr m c).trans (x_pad m c)) _)

theorem w0_block_idx (t : Fin cfg0.N) (y : S512x512.Idx) : ((cfg0.win 1).blk t).view.emb y = y := by
  funext a; apply Fin.ext
  obtain ⟨⟨e0, e1⟩, -⟩ := idx_res t
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega
theorem w0_block_read (X : S512x512.Idx → EReal) (t : Fin cfg0.N) (y : S512x512.Idx) :
    ((cfg0.win 1).blk t).view.read (Elt Ideal) X y = X y := by
  rw [View.read_apply]; exact congrArg X (w0_block_idx t y)
theorem w0_block_arr (c : Dev nD) : (V m c (Pipeline.arrRef spec0 1) : S512x512.Idx → EReal) = V m c main_v3 := rfl
theorem w0_block (c : Dev nD) (t : Fin cfg0.N) : (iblk m c 1 t : Vec Ideal S512x512 .f32) = m ((c : Thread nD τ).loc main_arg1) := by
  funext y; unfold iblk
  exact (w0_block_read (V m c (Pipeline.arrRef spec0 1)) t y).trans (congrFun ((w0_block_arr m c).trans (w0_pad m c)) y)
theorem w1_block_idx (t : Fin cfg0.N) (y : S512x512.Idx) : ((cfg0.win 3).blk t).view.emb y = y := by
  funext a; apply Fin.ext
  obtain ⟨-, -, ⟨e0, e1⟩, -⟩ := idx_res t
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega
theorem w1_block_read (X : S512x512.Idx → EReal) (t : Fin cfg0.N) (y : S512x512.Idx) :
    ((cfg0.win 3).blk t).view.read (Elt Ideal) X y = X y := by
  rw [View.read_apply]; exact congrArg X (w1_block_idx t y)
theorem w1_block_arr (c : Dev nD) : (V m c (Pipeline.arrRef spec0 3) : S512x512.Idx → EReal) = V m c main_v8 := rfl
theorem w1_block (c : Dev nD) (t : Fin cfg0.N) : (iblk m c 3 t : Vec Ideal S512x512 .f32) = m ((c : Thread nD τ).loc main_arg3) := by
  funext y; unfold iblk
  exact (w1_block_read (V m c (Pipeline.arrRef spec0 3)) t y).trans (congrFun ((w1_block_arr m c).trans (w1_pad m c)) y)
theorem w2_block_idx (t : Fin cfg0.N) (y : S512x512.Idx) : ((cfg0.win 5).blk t).view.emb y = y := by
  funext a; apply Fin.ext
  obtain ⟨-, -, -, -, ⟨e0, e1⟩, -⟩ := idx_res t
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega
theorem w2_block_read (X : S512x512.Idx → EReal) (t : Fin cfg0.N) (y : S512x512.Idx) :
    ((cfg0.win 5).blk t).view.read (Elt Ideal) X y = X y := by
  rw [View.read_apply]; exact congrArg X (w2_block_idx t y)
theorem w2_block_arr (c : Dev nD) : (V m c (Pipeline.arrRef spec0 5) : S512x512.Idx → EReal) = V m c main_v13 := rfl
theorem w2_block (c : Dev nD) (t : Fin cfg0.N) : (iblk m c 5 t : Vec Ideal S512x512 .f32) = m ((c : Thread nD τ).loc main_arg5) := by
  funext y; unfold iblk
  exact (w2_block_read (V m c (Pipeline.arrRef spec0 5)) t y).trans (congrFun ((w2_block_arr m c).trans (w2_pad m c)) y)
theorem b0_block_idx (t : Fin cfg0.N) (j : Fin 512) :
    ((cfg0.win 2).blk t).view.emb (ix2 (0 : Fin 1) j) = (ix2 (0 : Fin 1) j : S1x512.Idx) := by
  funext a; apply Fin.ext
  obtain ⟨-, ⟨e0, e1⟩, -⟩ := idx_res t
  match a with
  | ⟨0, _⟩ => show win0_2.index t (0 : Fin 2) * 1 + 1 * 0 = 0; rw [e0]
  | ⟨1, _⟩ => show win0_2.index t (1 : Fin 2) * 512 + 1 * j.val = j.val; rw [e1]; omega
theorem b0_block_read (X : S1x512.Idx → EReal) (t : Fin cfg0.N) (j : Fin 512) :
    ((cfg0.win 2).blk t).view.read (Elt Ideal) X (ix2 (0 : Fin 1) j) = X (ix2 (0 : Fin 1) j) := by
  rw [View.read_apply]; exact congrArg X (b0_block_idx t j)
theorem b0_block_arr (c : Dev nD) : (V m c (Pipeline.arrRef spec0 2) : S1x512.Idx → EReal) = V m c main_v6 := rfl
theorem b0_block (c : Dev nD) (t : Fin cfg0.N) (j : Fin 512) :
    (iblk m c 2 t : Vec Ideal S1x512 .f32) (ix2 0 j) = (m ((c : Thread nD τ).loc main_arg2) : S512.Idx → EReal) (ix1 j) := by
  unfold iblk
  exact (b0_block_read (V m c (Pipeline.arrRef spec0 2)) t j).trans ((congrFun (b0_block_arr m c) _).trans (b0_pad m c j))
theorem b1_block_idx (t : Fin cfg0.N) (j : Fin 512) :
    ((cfg0.win 4).blk t).view.emb (ix2 (0 : Fin 1) j) = (ix2 (0 : Fin 1) j : S1x512.Idx) := by
  funext a; apply Fin.ext
  obtain ⟨-, -, -, ⟨e0, e1⟩, -⟩ := idx_res t
  match a with
  | ⟨0, _⟩ => show win0_4.index t (0 : Fin 2) * 1 + 1 * 0 = 0; rw [e0]
  | ⟨1, _⟩ => show win0_4.index t (1 : Fin 2) * 512 + 1 * j.val = j.val; rw [e1]; omega
theorem b1_block_read (X : S1x512.Idx → EReal) (t : Fin cfg0.N) (j : Fin 512) :
    ((cfg0.win 4).blk t).view.read (Elt Ideal) X (ix2 (0 : Fin 1) j) = X (ix2 (0 : Fin 1) j) := by
  rw [View.read_apply]; exact congrArg X (b1_block_idx t j)
theorem b1_block_arr (c : Dev nD) : (V m c (Pipeline.arrRef spec0 4) : S1x512.Idx → EReal) = V m c main_v11 := rfl
theorem b1_block (c : Dev nD) (t : Fin cfg0.N) (j : Fin 512) :
    (iblk m c 4 t : Vec Ideal S1x512 .f32) (ix2 0 j) = (m ((c : Thread nD τ).loc main_arg4) : S512.Idx → EReal) (ix1 j) := by
  unfold iblk
  exact (b1_block_read (V m c (Pipeline.arrRef spec0 4)) t j).trans ((congrFun (b1_block_arr m c) _).trans (b1_pad m c j))
theorem b2_block_idx (t : Fin cfg0.N) (j : Fin 512) :
    ((cfg0.win 6).blk t).view.emb (ix2 (0 : Fin 1) j) = (ix2 (0 : Fin 1) j : S1x512.Idx) := by
  funext a; apply Fin.ext
  obtain ⟨-, -, -, -, -, ⟨e0, e1⟩⟩ := idx_res t
  match a with
  | ⟨0, _⟩ => show win0_6.index t (0 : Fin 2) * 1 + 1 * 0 = 0; rw [e0]
  | ⟨1, _⟩ => show win0_6.index t (1 : Fin 2) * 512 + 1 * j.val = j.val; rw [e1]; omega
theorem b2_block_read (X : S1x512.Idx → EReal) (t : Fin cfg0.N) (j : Fin 512) :
    ((cfg0.win 6).blk t).view.read (Elt Ideal) X (ix2 (0 : Fin 1) j) = X (ix2 (0 : Fin 1) j) := by
  rw [View.read_apply]; exact congrArg X (b2_block_idx t j)
theorem b2_block_arr (c : Dev nD) : (V m c (Pipeline.arrRef spec0 6) : S1x512.Idx → EReal) = V m c main_v16 := rfl
theorem b2_block (c : Dev nD) (t : Fin cfg0.N) (j : Fin 512) :
    (iblk m c 6 t : Vec Ideal S1x512 .f32) (ix2 0 j) = (m ((c : Thread nD τ).loc main_arg6) : S512.Idx → EReal) (ix1 j) := by
  unfold iblk
  exact (b2_block_read (V m c (Pipeline.arrRef spec0 6)) t j).trans ((congrFun (b2_block_arr m c) _).trans (b2_pad m c j))

/-! ## The result array -/

/-- What the reference's result array ends holding: the three layers of the arguments, row by row. -/
abbrev result (c : Dev nD) : S16384x512.Idx → EReal :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem zeros2 : (![0, 0] : Fin 2 → ℕ) = fun _ => 0 := by funext a; fin_cases a <;> rfl

/-- The body's one store covers the output buffer, so the buffer ends at the stored value. -/
theorem out_eq (x0 : Vec Ideal S128x512 .f32) (x1 : Vec Ideal S512x512 .f32) (x2 : Vec Ideal S1x512 .f32) (x3 : Vec Ideal S512x512 .f32)
    (x4 : Vec Ideal S1x512 .f32) (x5 : Vec Ideal S512x512 .f32) (x6 : Vec Ideal S1x512 .f32) :
    out0_7 x0 x1 x2 x3 x4 x5 x6 = k0_pay1 (F := Ideal) x0 x1 x2 x3 x4 x5 x6 := by
  unfold out0_7
  rw [View.canon_unit_zero zeros2]
  simp only [View.ld_unit_zero (S := S128x512) zeros2, View.ld_unit_zero (S := S512x512) zeros2, View.ld_unit_zero (S := S1x512) zeros2]

/-- What the body leaves in the output buffer at point t is rows 128 t on of the result. -/
theorem outTile_apply (c : Dev nD) (t : Fin cfg0.N) (p : Fin 128) (q : Fin 512) :
    out0_7 (iblk m c 0 t) (iblk m c 1 t) (iblk m c 2 t) (iblk m c 3 t) (iblk m c 4 t) (iblk m c 5 t) (iblk m c 6 t) (ix2 p q)
      = result m c (ix2 (⟨128 * t.val + p.val, by have := p.isLt; have := t.isLt; have := pts; omega⟩ : Fin 16384) q) := by
  refine (congrFun (out_eq (iblk m c 0 t) (iblk m c 1 t) (iblk m c 2 t) (iblk m c 3 t) (iblk m c 4 t) (iblk m c 5 t) (iblk m c 6 t)) (ix2 p q)).trans ?_
  refine (Tile.out_apply (iblk m c 0 t) (iblk m c 1 t) (iblk m c 2 t) (iblk m c 3 t) (iblk m c 4 t) (iblk m c 5 t) (iblk m c 6 t) p q).trans ?_
  exact mlp3_congr (funext fun k => in_tile_apply m c t p k) (w0_block m c t) (w1_block m c t) (w2_block m c t)
    (funext fun j => b0_block m c t j) (funext fun j => b1_block m c t j) (funext fun j => b2_block m c t j) q

theorem outTile_eq (c : Dev nD) (t : Fin cfg0.N) :
    out0_7 (iblk m c 0 t) (iblk m c 1 t) (iblk m c 2 t) (iblk m c 3 t) (iblk m c 4 t) (iblk m c 5 t) (iblk m c 6 t)
      = fun y : S128x512.Idx =>
        result m c (ix2 (⟨128 * t.val + (y 0).val, by have h2 : (y 0).val < 128 := (y 0).isLt; have := t.isLt; have := pts; omega⟩ : Fin 16384) (y 1)) := by
  funext y
  exact (congrArg _ (eq_ix2 y)).trans (outTile_apply m c t (y 0) (y 1))

/-- What point t writes back is its block of the result. -/
theorem flushed_eq (c : Dev nD) (t : Fin cfg0.N) :
    (dats m 0 c).flushed 7 t = ((cfg0.win 7).blk t).view.read (Elt Ideal) (result m c) := by
  rw [Value.flushed7, outTile_eq m c t]
  funext j
  show result m c (ix2 (⟨128 * t.val + (j 0).val, _⟩ : Fin 16384) (j 1)) = result m c (((cfg0.win 7).blk t).view.emb j)
  congr 1; funext a; apply Fin.ext
  obtain ⟨-, ⟨e0, e1⟩⟩ := idx_rows t
  match a with
  | ⟨0, _⟩ => show 128 * t.val + (j 0).val = win0_7.index t (0 : Fin 2) * 128 + 1 * (j 0).val; rw [e0]; omega
  | ⟨1, _⟩ => show (j 1).val = win0_7.index t (1 : Fin 2) * 512 + 1 * (j 1).val; rw [e1]; omega

theorem mem_blk (t : Fin cfg0.N) (i : S16384x512.Idx) :
    i ∈ ((cfg0.win 7).blk t).view.set ↔ ∀ a : Fin 2, win0_7.index t a * S128x512.size a ≤ (i a).val ∧ (i a).val < win0_7.index t a * S128x512.size a + S128x512.size a := by
  show i ∈ ((View.whole main_v17).slice (win0_7.rect t)).set ↔ _
  rw [View.set_slice_whole, Rect.mem_set_unit]
  exact Iff.rfl

theorem covered (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hlt : (i 0).val / 128 < cfg0.N := by rw [pts]; omega
  refine ⟨⟨(i 0).val / 128, hlt⟩, flush0_7 _, ?_⟩
  rw [mem_blk]
  obtain ⟨-, ⟨e0, e1⟩⟩ := idx_rows ⟨(i 0).val / 128, hlt⟩
  intro a
  match a with
  | ⟨0, _⟩ =>
    show win0_7.index ⟨(i 0).val / 128, hlt⟩ (0 : Fin 2) * 128 ≤ (i 0).val ∧ (i 0).val < win0_7.index ⟨(i 0).val / 128, hlt⟩ (0 : Fin 2) * 128 + 128
    rw [e0]; dsimp only; omega
  | ⟨1, _⟩ =>
    show win0_7.index ⟨(i 0).val / 128, hlt⟩ (1 : Fin 2) * 512 ≤ (i 1).val ∧ (i 1).val < win0_7.index ⟨(i 0).val / 128, hlt⟩ (1 : Fin 2) * 512 + 512
    rw [e1]; omega

theorem final (c : Dev nD) : (dats m 0 c).arrAt 7 cfg0.N = result m c :=
  (dats m 0 c).arrAt_eq_of_cover 7 (result m c) (fun t _ => flushed_eq m c t) covered

/-- The reference's run, read: its result at the three layers of the arguments, the arguments unchanged. -/
theorem run_value : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c), (h c).2⟩) (Value.run_blocks m ρ)

end Cert.ReferenceIdeal.Final

end
-- ==== Proof.lean ====
/-
  A three-layer perceptron, out = relu(relu(x W0 + b0) W1 + b1) W2 + b2 on a 16384 × 512 input with 512 × 512 weights,
  computed two ways.

  The kernel walks a grid of nine points over eight row tiles of 2048 rows. The first point narrows the three weight matrices
  and the two hidden biases to a shorter float format into scratch. Point t < 8 pushes tile t through the three matrix
  products (a bias add and a rectified linear unit after the first two) and parks the third product in half t mod 2 of a
  two-tile scratch buffer; point t ≥ 1 takes tile t - 1 out of the other half, adds the last bias and stores it to output
  block t - 1. The reference pads every argument into a zero array (an overwriting scatter; here nothing needs rounding
  up, so the padded arrays are the arguments) and runs one kernel over 128 tiles of 128 rows that does all three layers at
  once.

  Over the extended reals a change of float format is the identity and a matrix product into a zero accumulator is the sum
  over the contracted index, so both programs leave at entry (r, j) the same expression: the three dense layers applied to
  row r of x, read at j (Spec.lean). No law beyond reading both sides entry by entry is used, and so the finiteness of
  the inputs is never opened.

  The kernel's frame needs the scratch tracked between grid points: after point n the five narrowed arrays sit in their
  scratch buffers and half n mod 2 of the two-tile buffer holds tile n's product; the half a draining point reads is the
  half the point before wrote, since (t + 1) mod 2 = (t - 1) mod 2. That invariant is proved once for any float instance
  and used at both: the word-level kernel (frame only) and the idealized one (frame and value). The reference keeps nothing between
  points: each of its 128 points writes rows 128 t to 128 t + 127 of the result, and the blocks tile the array.
-/
import proofs.«142892_g2000705975908629_pallasbulk_322_25_alg».proof.Defs
import proofs.«142892_g2000705975908629_pallasbulk_322_25_alg».proof.Proof.Gen.Kernel
import proofs.«142892_g2000705975908629_pallasbulk_322_25_alg».proof.Proof.Gen.KernelIdeal
import proofs.«142892_g2000705975908629_pallasbulk_322_25_alg».proof.Proof.Gen.ReferenceIdeal
import proofs.«142892_g2000705975908629_pallasbulk_322_25_alg».proof.Proof.Gen.ReferenceIdeal.Frame
import proofs.«142892_g2000705975908629_pallasbulk_322_25_alg».proof.Proof.Gen.Pre_finite_inputs
import proofs.«142892_g2000705975908629_pallasbulk_322_25_alg».proof.Proof.Bits.Track
import proofs.«142892_g2000705975908629_pallasbulk_322_25_alg».proof.Proof.Ideal.Final
import proofs.«142892_g2000705975908629_pallasbulk_322_25_alg».proof.Proof.Ref.Final
import Idealize.ShloMosaic.Adequacy
import Idealize.ShloMosaic.Init

noncomputable section

namespace Cert.Proof

open Idealize.ShloMosaic Idealize.SL.Sem

/-- The word-level kernel runs to the end and leaves its arguments alone. -/
theorem frame_bits : Cert.frame_Kernel := fun m ρ _ => Cert.Kernel.Hand.frame m ρ

/-- So does the idealized kernel, -/
theorem frame_ideal : Cert.frame_KernelIdeal := fun m ρ _ => Cert.KernelIdeal.Hand.frame m ρ

/-- and the idealized reference. -/
theorem frame_ref : Cert.frame_ReferenceIdeal := fun m ρ _ => Cert.ReferenceIdeal.Gen.frame m ρ

/-- From memories that agree on the arguments, both idealized programs end with the three layers of the arguments in
    their result arrays: the same array. -/
theorem same_result : Cert.algebraic_KernelIdeal_ReferenceIdeal := by
  intro m ρ m' ρ' _ hagree
  refine ⟨fun c => Cert.KernelIdeal.Final.result m c, Cert.KernelIdeal.Final.run_value m ρ, ?_⟩
  refine (θ_run Cert.ReferenceIdeal.defs _ _).mono (fun _ h c => ⟨(h c).1.trans ?_, (h c).2⟩)
    (Cert.ReferenceIdeal.Final.run_value m' ρ')
  exact Cert.Spec.net_congr (hagree c).1 (hagree c).2.1 (hagree c).2.2.1 (hagree c).2.2.2.1 (hagree c).2.2.2.2.1
    (hagree c).2.2.2.2.2.1 (hagree c).2.2.2.2.2.2

theorem claim : Cert.Claim :=
  ⟨Cert.Kernel.Gen.facts, Cert.KernelIdeal.Gen.facts, Cert.ReferenceIdeal.Gen.facts, Cert.Pre_finite_inputs.Gen.facts,
    frame_bits, frame_ideal, frame_ref, trivial, same_result⟩

end Cert.Proof

end
